-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x64x64 : Shape := ⟨4, ![4, 512, 64, 64]⟩
abbrev S_ : Shape := ⟨0, ![]⟩

class Facts : Prop where
  bcast_S_S4x512x64x64 : S_.BroadcastsInDim S4x512x64x64 (![] : Fin 0 → Fin S4x512x64x64.rank)
  reducesTo_S4x512x64x64_S_d0_1_2_3 : S4x512x64x64.ReducesTo [0, 1, 2, 3] S_
  h_S_ : 0 < S_.numel

variable [Facts]

def fn {F : FTy → Type} [FloatOps F] (main_arg0 : FVec F S4x512x64x64 .f32) (main_arg1 : FVec F S4x512x64x64 .f32) : IVec S_ 1 :=
  let main_v0 : FVec F S4x512x64x64 .f32 := Host.absf main_arg0
  let main_cst : FVec F S_ .f32 := constant S_ .f32 0x7F800000#32
  let main_v1 : FVec F S4x512x64x64 .f32 := broadcastInDim S4x512x64x64 ![] bcast_S_S4x512x64x64 main_cst
  let main_v2 : IVec S4x512x64x64 1 := cmpf .olt main_v0 main_v1
  let main_c : IVec S_ 1 := constantI S_ 1 1#1
  let main_v3 : IVec S_ 1 := (fun x v => Host.reduce IntOp.andi x v reducesTo_S4x512x64x64_S_d0_1_2_3 h_S_) main_v2 main_c
  let main_v4 : FVec F S4x512x64x64 .f32 := Host.absf main_arg1
  let main_cst_0 : FVec F S_ .f32 := constant S_ .f32 0x7F800000#32
  let main_v5 : FVec F S4x512x64x64 .f32 := broadcastInDim S4x512x64x64 ![] bcast_S_S4x512x64x64 main_cst_0
  let main_v6 : IVec S4x512x64x64 1 := cmpf .olt main_v4 main_v5
  let main_c_1 : IVec S_ 1 := constantI S_ 1 1#1
  let main_v7 : IVec S_ 1 := (fun x v => Host.reduce IntOp.andi x v reducesTo_S4x512x64x64_S_d0_1_2_3 h_S_) main_v6 main_c_1
  let main_v8 : IVec S_ 1 := andi main_v3 main_v7
  main_v8
-- ==== Kernel.lean ====
abbrev S4x512x64x64 : Shape := ⟨4, ![4, 512, 64, 64]⟩
abbrev S4x512x4096 : Shape := ⟨3, ![4, 512, 4096]⟩
abbrev S_ : Shape := ⟨0, ![]⟩
abbrev S4x512 : Shape := ⟨2, ![4, 512]⟩
abbrev S4x512x1 : Shape := ⟨3, ![4, 512, 1]⟩
abbrev S4x4096 : Shape := ⟨2, ![4, 4096]⟩
abbrev S4x1x4096 : Shape := ⟨3, ![4, 1, 4096]⟩
abbrev S4x4096x512 : Shape := ⟨3, ![4, 4096, 512]⟩
abbrev S4x8x128 : Shape := ⟨3, ![4, 8, 128]⟩
abbrev S1x256x512 : Shape := ⟨3, ![1, 256, 512]⟩
abbrev S1x512x4096 : Shape := ⟨3, ![1, 512, 4096]⟩
abbrev S1x8x128 : Shape := ⟨3, ![1, 8, 128]⟩
abbrev S8x4096 : Shape := ⟨2, ![8, 4096]⟩
abbrev S256x512 : Shape := ⟨2, ![256, 512]⟩
abbrev S512x4096 : Shape := ⟨2, ![512, 4096]⟩
abbrev S256x4096 : Shape := ⟨2, ![256, 4096]⟩
abbrev S256 : Shape := ⟨1, ![256]⟩
abbrev S256x1 : Shape := ⟨2, ![256, 1]⟩
abbrev S4096 : Shape := ⟨1, ![4096]⟩
abbrev S1x4096 : Shape := ⟨2, ![1, 4096]⟩
abbrev S8 : Shape := ⟨1, ![8]⟩
abbrev S8x1 : Shape := ⟨2, ![8, 1]⟩
abbrev S1 : Shape := ⟨1, ![1]⟩
abbrev S1x1 : Shape := ⟨2, ![1, 1]⟩
abbrev S8x128 : Shape := ⟨2, ![8, 128]⟩
abbrev S4x1x1 : Shape := ⟨3, ![4, 1, 1]⟩
abbrev S4 : Shape := ⟨1, ![4]⟩

abbrev nBuf : Space → Nat
  | .hbm => 46
  | .vmem => 7
  | .smem => 0
  | _ => 0

abbrev bufTy : (tb : Table) → Fin (tcTables nBuf tb) → BufTy
  | .hbm, ⟨0, _⟩ => ⟨S4x512x64x64, .f32⟩
  | .hbm, ⟨1, _⟩ => ⟨S4x512x64x64, .f32⟩
  | .hbm, ⟨2, _⟩ => ⟨S4x512x4096, .f32⟩
  | .hbm, ⟨3, _⟩ => ⟨S4x512x4096, .f32⟩
  | .hbm, ⟨4, _⟩ => ⟨S_, .f32⟩
  | .hbm, ⟨5, _⟩ => ⟨S4x512, .f32⟩
  | .hbm, ⟨6, _⟩ => ⟨S4x512x1, .f32⟩
  | .hbm, ⟨7, _⟩ => ⟨S_, .f32⟩
  | .hbm, ⟨8, _⟩ => ⟨S4x512x1, .f32⟩
  | .hbm, ⟨9, _⟩ => ⟨S4x512x1, .f32⟩
  | .hbm, ⟨10, _⟩ => ⟨S4x512x4096, .f32⟩
  | .hbm, ⟨11, _⟩ => ⟨S4x512x4096, .f32⟩
  | .hbm, ⟨12, _⟩ => ⟨S4x512x4096, .f32⟩
  | .hbm, ⟨13, _⟩ => ⟨S4x512x4096, .f32⟩
  | .hbm, ⟨14, _⟩ => ⟨S4x512x4096, .f32⟩
  | .hbm, ⟨15, _⟩ => ⟨S_, .f32⟩
  | .hbm, ⟨16, _⟩ => ⟨S4x4096, .f32⟩
  | .hbm, ⟨17, _⟩ => ⟨S4x1x4096, .f32⟩
  | .hbm, ⟨18, _⟩ => ⟨S4x1x4096, .f32⟩
  | .hbm, ⟨19, _⟩ => ⟨S_, .f32⟩
  | .hbm, ⟨20, _⟩ => ⟨S4x1x4096, .f32⟩
  | .hbm, ⟨21, _⟩ => ⟨S4x1x4096, .f32⟩
  | .hbm, ⟨22, _⟩ => ⟨S4x512x4096, .f32⟩
  | .hbm, ⟨23, _⟩ => ⟨S4x512x4096, .f32⟩
  | .hbm, ⟨24, _⟩ => ⟨S4x512x4096, .f32⟩
  | .hbm, ⟨25, _⟩ => ⟨S_, .f32⟩
  | .hbm, ⟨26, _⟩ => ⟨S4x4096, .f32⟩
  | .hbm, ⟨27, _⟩ => ⟨S4x1x4096, .f32⟩
  | .hbm, ⟨28, _⟩ => ⟨S4x1x4096, .f32⟩
  | .hbm, ⟨29, _⟩ => ⟨S_, .f32⟩
  | .hbm, ⟨30, _⟩ => ⟨S4x1x4096, .f32⟩
  | .hbm, ⟨31, _⟩ => ⟨S4x1x4096, .f32⟩
  | .hbm, ⟨32, _⟩ => ⟨S4x512x4096, .f32⟩
  | .hbm, ⟨33, _⟩ => ⟨S4x512x4096, .f32⟩
  | .hbm, ⟨34, _⟩ => ⟨S4x4096x512, .f32⟩
  | .hbm, ⟨35, _⟩ => ⟨S4x4096x512, .bf16⟩
  | .hbm, ⟨36, _⟩ => ⟨S4x512x4096, .bf16⟩
  | .hbm, ⟨37, _⟩ => ⟨S4x8x128, .f32⟩
  | .hbm, ⟨38, _⟩ => ⟨S4x1x1, .f32⟩
  | .hbm, ⟨39, _⟩ => ⟨S4, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .local _ .vmem, ⟨0, _⟩ => ⟨S1x256x512, .bf16⟩
  | .local _ .vmem, ⟨1, _⟩ => ⟨S1x256x512, .bf16⟩
  | .local _ .vmem, ⟨2, _⟩ => ⟨S1x512x4096, .bf16⟩
  | .local _ .vmem, ⟨3, _⟩ => ⟨S1x512x4096, .bf16⟩
  | .local _ .vmem, ⟨4, _⟩ => ⟨S1x8x128, .f32⟩
  | .local _ .vmem, ⟨5, _⟩ => ⟨S1x8x128, .f32⟩
  | .local _ .vmem, ⟨6, _⟩ => ⟨S8x4096, .f32⟩
  | _, _ => ⟨S4x512x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_5 : Ref sig .tc := ⟨.hbm, 40, rfl⟩
abbrev main_v32 : Ref sig .tc := ⟨.hbm, 41, rfl⟩
abbrev main_cst_6 : Ref sig .tc := ⟨.hbm, 42, rfl⟩
abbrev main_v33 : Ref sig .tc := ⟨.hbm, 43, rfl⟩
abbrev main_cst_7 : Ref sig .tc := ⟨.hbm, 44, rfl⟩
abbrev main_v34 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v34 : BitVec 1 := Scalar.cmpi .eq arg1 c15_i32
  let v35 : BitVec 32 := Scalar.extui v34
  let c0_i32_17 : BitVec 32 := 0#32
  let v36 : BitVec 1 := Scalar.cmpi .ne v35 c0_i32_17
  v36

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4x512x64x64_S4x512x4096 : S4x512x64x64.ShapeCasts S4x512x4096
  reducesTo_S4x512x4096_S4x512_d2 : S4x512x4096.ReducesTo [2] S4x512
  h_S_ : 0 < S_.numel
  bcast_S4x512_S4x512x1_0_1 : S4x512.BroadcastsInDim S4x512x1 (![0, 1] : Fin 2 → Fin S4x512x1.rank)
  bcast_S_S4x512x1 : S_.BroadcastsInDim S4x512x1 (![] : Fin 0 → Fin S4x512x1.rank)
  bcast_S4x512x1_S4x512x4096_0_1_2 : S4x512x1.BroadcastsInDim S4x512x4096 (![0, 1, 2] : Fin 3 → Fin S4x512x4096.rank)
  reducesTo_S4x512x4096_S4x4096_d1 : S4x512x4096.ReducesTo [1] S4x4096
  bcast_S4x4096_S4x1x4096_0_2 : S4x4096.BroadcastsInDim S4x1x4096 (![0, 2] : Fin 2 → Fin S4x1x4096.rank)
  bcast_S_S4x1x4096 : S_.BroadcastsInDim S4x1x4096 (![] : Fin 0 → Fin S4x1x4096.rank)
  bcast_S4x1x4096_S4x512x4096_0_1_2 : S4x1x4096.BroadcastsInDim S4x512x4096 (![0, 1, 2] : Fin 3 → Fin S4x512x4096.rank)
  transposes_S4x512x4096_S4x4096x512_0_2_1 : S4x512x4096.Transposes [0, 2, 1] S4x4096x512
  bitsLt_bf16_f32 : FTy.bits .bf16 < FTy.bits .f32
  inb_S8x4096_S8x4096_0_0 : ∀ a, (![0, 0] : Fin 2 → Nat) a + S8x4096.size a ≤ S8x4096.size a
  h_S8x4096 : 0 < S8x4096.numel
  shapeCasts_S8x4096_S8x4096 : S8x4096.ShapeCasts S8x4096
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1x512x4096_S1x512x4096_0_0_0 : ∀ a, (![0, 0, 0] : Fin 3 → Nat) a + S1x512x4096.size a ≤ S1x512x4096.size a
  h_S1x512x4096 : 0 < S1x512x4096.numel
  shapeCasts_S1x512x4096_S512x4096 : S1x512x4096.ShapeCasts S512x4096
  reduces_S256x4096_S256 : S256x4096.Reduces [1] S256
  shapeCasts_S256_S256x1 : S256.ShapeCasts S256x1
  broadcasts_S256x1_S256x4096 : S256x1.Broadcasts S256x4096
  reduces_S256x4096_S4096 : S256x4096.Reduces [0] S4096
  shapeCasts_S4096_S1x4096 : S4096.ShapeCasts S1x4096
  shapeCasts_S1x4096_S1x4096 : S1x4096.ShapeCasts S1x4096
  broadcasts_S1x4096_S8x4096 : S1x4096.Broadcasts S8x4096
  reduces_S8x4096_S8 : S8x4096.Reduces [1] S8
  shapeCasts_S8_S8x1 : S8.ShapeCasts S8x1
  reduces_S8x1_S1 : S8x1.Reduces [0] S1
  shapeCasts_S1_S1x1 : S1.ShapeCasts S1x1
  shapeCasts_S1x1_S1x1 : S1x1.ShapeCasts S1x1
  broadcasts_S1x1_S8x128 : S1x1.Broadcasts S8x128
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  slices_S4x8x128_S4x1x1_0_0_0 : S4x8x128.Slices ![0, 0, 0] S4x1x1
  shapeCasts_S4x1x1_S4 : S4x1x1.ShapeCasts S4
  reducesTo_S4_S_d0 : S4.ReducesTo [0] S_
  dot_S256x512_S512x4096_S256x4096_1_0_0_1_n_n_wf : DotDims.WF S256x512 S512x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S4x4096x512.size a
  hwx0_0 : ∀ i : grid0.Coords, EltTy.bits .bf16 = 32 ∨ (Rect.block (s := S4x4096x512) S1x256x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x4096.size a ≤ S4x512x4096.size a
  hwx0_1 : ∀ i : grid0.Coords, EltTy.bits .bf16 = 32 ∨ (Rect.block (s := S4x512x4096) S1x512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S4x8x128.size a
  hwx0_2 : ∀ i : grid0.Coords, EltTy.bits .f32 = 32 ∨ (Rect.block (s := S4x8x128) S1x8x128.size (cc0_transform_2 i) (hinb0_2 i)).WholeWords (EltTy.packing .f32)

variable [Facts₀]

def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf

abbrev win0_0 : Pipeline.Window sig grid0 :=
  Pipeline.Window.ofSpec (Memref.whole main_v27) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S1x512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x512x64x64 : Shape := ⟨4, ![4, 512, 64, 64]⟩
abbrev S4x512x4096 : Shape := ⟨3, ![4, 512, 4096]⟩
abbrev S_ : Shape := ⟨0, ![]⟩
abbrev S4x512 : Shape := ⟨2, ![4, 512]⟩
abbrev S4x512x1 : Shape := ⟨3, ![4, 512, 1]⟩
abbrev S4x4096 : Shape := ⟨2, ![4, 4096]⟩
abbrev S4x1x4096 : Shape := ⟨3, ![4, 1, 4096]⟩
abbrev S4x4096x4096 : Shape := ⟨3, ![4, 4096, 4096]⟩
abbrev S4x4096x1 : Shape := ⟨3, ![4, 4096, 1]⟩
abbrev S4 : Shape := ⟨1, ![4]⟩

abbrev nBuf : Space → Nat
  | .hbm => 76
  | .vmem => 0
  | .smem => 0
  | _ => 0

abbrev bufTy : (tb : Table) → Fin (tcTables nBuf tb) → BufTy
  | .hbm, ⟨0, _⟩ => ⟨S4x512x64x64, .f32⟩
  | .hbm, ⟨1, _⟩ => ⟨S4x512x64x64, .f32⟩
  | .hbm, ⟨2, _⟩ => ⟨S4x512x4096, .f32⟩
  | .hbm, ⟨3, _⟩ => ⟨S4x512x4096, .f32⟩
  | .hbm, ⟨4, _⟩ => ⟨S_, .f32⟩
  | .hbm, ⟨5, _⟩ => ⟨S4x512, .f32⟩
  | .hbm, ⟨6, _⟩ => ⟨S4x512x1, .f32⟩
  | .hbm, ⟨7, _⟩ => ⟨S_, .f32⟩
  | .hbm, ⟨8, _⟩ => ⟨S4x512x1, .f32⟩
  | .hbm, ⟨9, _⟩ => ⟨S4x512x1, .f32⟩
  | .hbm, ⟨10, _⟩ => ⟨S4x512x4096, .f32⟩
  | .hbm, ⟨11, _⟩ => ⟨S4x512x4096, .f32⟩
  | .hbm, ⟨12, _⟩ => ⟨S4x512x4096, .f32⟩
  | .hbm, ⟨13, _⟩ => ⟨S4x512x4096, .f32⟩
  | .hbm, ⟨14, _⟩ => ⟨S4x512x4096, .f32⟩
  | .hbm, ⟨15, _⟩ => ⟨S_, .f32⟩
  | .hbm, ⟨16, _⟩ => ⟨S4x4096, .f32⟩
  | .hbm, ⟨17, _⟩ => ⟨S4x1x4096, .f32⟩
  | .hbm, ⟨18, _⟩ => ⟨S4x1x4096, .f32⟩
  | .hbm, ⟨19, _⟩ => ⟨S_, .f32⟩
  | .hbm, ⟨20, _⟩ => ⟨S4x1x4096, .f32⟩
  | .hbm, ⟨21, _⟩ => ⟨S4x1x4096, .f32⟩
  | .hbm, ⟨22, _⟩ => ⟨S4x512x4096, .f32⟩
  | .hbm, ⟨23, _⟩ => ⟨S4x512x4096, .f32⟩
  | .hbm, ⟨24, _⟩ => ⟨S4x512x4096, .f32⟩
  | .hbm, ⟨25, _⟩ => ⟨S_, .f32⟩
  | .hbm, ⟨26, _⟩ => ⟨S4x4096, .f32⟩
  | .hbm, ⟨27, _⟩ => ⟨S4x1x4096, .f32⟩
  | .hbm, ⟨28, _⟩ => ⟨S4x1x4096, .f32⟩
  | .hbm, ⟨29, _⟩ => ⟨S_, .f32⟩
  | .hbm, ⟨30, _⟩ => ⟨S4x1x4096, .f32⟩
  | .hbm, ⟨31, _⟩ => ⟨S4x1x4096, .f32⟩
  | .hbm, ⟨32, _⟩ => ⟨S4x512x4096, .f32⟩
  | .hbm, ⟨33, _⟩ => ⟨S4x512x4096, .f32⟩
  | .hbm, ⟨34, _⟩ => ⟨S4x4096x4096, .f32⟩
  | .hbm, ⟨35, _⟩ => ⟨S_, .f32⟩
  | .hbm, ⟨36, _⟩ => ⟨S4x4096x4096, .f32⟩
  | .hbm, ⟨37, _⟩ => ⟨S4x4096x4096, .f32⟩
  | .hbm, ⟨38, _⟩ => ⟨S_, .f32⟩
  | .hbm, ⟨39, _⟩ => ⟨S4x4096, .f32⟩
  | .hbm, ⟨40, _⟩ => ⟨S4x4096x1, .f32⟩
  | .hbm, ⟨41, _⟩ => ⟨S_, .f32⟩
  | .hbm, ⟨42, _⟩ => ⟨S4x4096x1, .f32⟩
  | .hbm, ⟨43, _⟩ => ⟨S4x4096x1, .f32⟩
  | .hbm, ⟨44, _⟩ => ⟨S4x4096x4096, .f32⟩
  | .hbm, ⟨45, _⟩ => ⟨S4x4096x4096, .f32⟩
  | .hbm, ⟨46, _⟩ => ⟨S_, .f32⟩
  | .hbm, ⟨47, _⟩ => ⟨S4x4096x4096, .f32⟩
  | .hbm, ⟨48, _⟩ => ⟨S4x4096x4096, .f32⟩
  | .hbm, ⟨49, _⟩ => ⟨S_, .f32⟩
  | .hbm, ⟨50, _⟩ => ⟨S4x4096x4096, .f32⟩
  | .hbm, ⟨51, _⟩ => ⟨S4x4096x4096, .f32⟩
  | .hbm, ⟨52, _⟩ => ⟨S4x4096x4096, .f32⟩
  | .hbm, ⟨53, _⟩ => ⟨S_, .f32⟩
  | .hbm, ⟨54, _⟩ => ⟨S4x4096, .f32⟩
  | .hbm, ⟨55, _⟩ => ⟨S4x4096x1, .f32⟩
  | .hbm, ⟨56, _⟩ => ⟨S4x4096x4096, .f32⟩
  | .hbm, ⟨57, _⟩ => ⟨S4x4096x4096, .f32⟩
  | .hbm, ⟨58, _⟩ => ⟨S_, .f32⟩
  | .hbm, ⟨59, _⟩ => ⟨S4x4096, .f32⟩
  | .hbm, ⟨60, _⟩ => ⟨S_, .f32⟩
  | .hbm, ⟨61, _⟩ => ⟨S4, .f32⟩
  | .hbm, ⟨62, _⟩ => ⟨S_, .f32⟩
  | .hbm, ⟨63, _⟩ => ⟨S4, .f32⟩
  | .hbm, ⟨64, _⟩ => ⟨S4, .f32⟩
  | .hbm, ⟨65, _⟩ => ⟨S_, .f32⟩
  | .hbm, ⟨66, _⟩ => ⟨S4, .f32⟩
  | .hbm, ⟨67, _⟩ => ⟨S4, .f32⟩
  | .hbm, ⟨68, _⟩ => ⟨S4, .f32⟩
  | .hbm, ⟨69, _⟩ => ⟨S4, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | _, _ => ⟨S4x512x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_call0_v0 : Ref sig .tc := ⟨.hbm, 14, rfl⟩
abbrev main_call0_cst : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call1_v0 : Ref sig .tc := ⟨.hbm, 24, rfl⟩
abbrev main_call1_cst : Ref sig .tc := ⟨.hbm, 25, rfl⟩
abbrev main_call1_v1 : Ref sig .tc := ⟨.hbm, 26, rfl⟩
abbrev main_call1_v2 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_3 : Ref sig .tc := ⟨.hbm, 35, rfl⟩
abbrev main_v21 : Ref sig .tc := ⟨.hbm, 36, rfl⟩
abbrev main_v22 : Ref sig .tc := ⟨.hbm, 37, rfl⟩
abbrev main_cst_4 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_cst_10 : Ref sig .tc := ⟨.hbm, 60, rfl⟩
abbrev main_v39 : Ref sig .tc := ⟨.hbm, 61, rfl⟩
abbrev main_cst_11 : Ref sig .tc := ⟨.hbm, 62, rfl⟩
abbrev main_v40 : Ref sig .tc := ⟨.hbm, 63, rfl⟩
abbrev main_v41 : Ref sig .tc := ⟨.hbm, 64, rfl⟩
abbrev main_cst_12 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_13 : Ref sig .tc := ⟨.hbm, 70, rfl⟩
abbrev main_v46 : Ref sig .tc := ⟨.hbm, 71, rfl⟩
abbrev main_cst_14 : Ref sig .tc := ⟨.hbm, 72, rfl⟩
abbrev main_v47 : Ref sig .tc := ⟨.hbm, 73, rfl⟩
abbrev main_cst_15 : Ref sig .tc := ⟨.hbm, 74, rfl⟩
abbrev main_v48 : Ref sig .tc := ⟨.hbm, 75, rfl⟩

abbrev nD : Nat := 1
abbrev τ : Topo := Topo.v7x

variable {F : FTy → Type} [FloatOps F]

class Facts₀ : Prop where
  shapeCasts_S4x512x64x64_S4x512x4096 : S4x512x64x64.ShapeCasts S4x512x4096
  reducesTo_S4x512x4096_S4x512_d2 : S4x512x4096.ReducesTo [2] S4x512
  h_S_ : 0 < S_.numel
  bcast_S4x512_S4x512x1_0_1 : S4x512.BroadcastsInDim S4x512x1 (![0, 1] : Fin 2 → Fin S4x512x1.rank)
  bcast_S_S4x512x1 : S_.BroadcastsInDim S4x512x1 (![] : Fin 0 → Fin S4x512x1.rank)
  bcast_S4x512x1_S4x512x4096_0_1_2 : S4x512x1.BroadcastsInDim S4x512x4096 (![0, 1, 2] : Fin 3 → Fin S4x512x4096.rank)
  reducesTo_S4x512x4096_S4x4096_d1 : S4x512x4096.ReducesTo [1] S4x4096
  bcast_S4x4096_S4x1x4096_0_2 : S4x4096.BroadcastsInDim S4x1x4096 (![0, 2] : Fin 2 → Fin S4x1x4096.rank)
  bcast_S_S4x1x4096 : S_.BroadcastsInDim S4x1x4096 (![] : Fin 0 → Fin S4x1x4096.rank)
  bcast_S4x1x4096_S4x512x4096_0_1_2 : S4x1x4096.BroadcastsInDim S4x512x4096 (![0, 1, 2] : Fin 3 → Fin S4x512x4096.rank)
  bcast_S_S4x4096x4096 : S_.BroadcastsInDim S4x4096x4096 (![] : Fin 0 → Fin S4x4096x4096.rank)
  reducesTo_S4x4096x4096_S4x4096_d2 : S4x4096x4096.ReducesTo [2] S4x4096
  bcast_S4x4096_S4x4096x1_0_1 : S4x4096.BroadcastsInDim S4x4096x1 (![0, 1] : Fin 2 → Fin S4x4096x1.rank)
  bcast_S_S4x4096x1 : S_.BroadcastsInDim S4x4096x1 (![] : Fin 0 → Fin S4x4096x1.rank)
  bcast_S4x4096x1_S4x4096x4096_0_1_2 : S4x4096x1.BroadcastsInDim S4x4096x4096 (![0, 1, 2] : Fin 3 → Fin S4x4096x4096.rank)
  reducesTo_S4x4096x4096_S4x4096_d1 : S4x4096x4096.ReducesTo [1] S4x4096
  reducesTo_S4x4096_S4_d1 : S4x4096.ReducesTo [1] S4
  bcast_S_S4 : S_.BroadcastsInDim S4 (![] : Fin 0 → Fin S4.rank)
  reducesTo_S4_S_d0 : S4.ReducesTo [0] S_
  dot_S4x512x4096_S4x512x4096_S4x4096x4096_1_1_2_2_0_0_wf : DotDims.WF S4x512x4096 S4x512x4096 S4x4096x4096 [1] [1] [2] [2] [0] [0]

variable [Facts₀]

def dot_S4x512x4096_S4x512x4096_S4x4096x4096_1_1_2_2_0_0 : DotDims S4x512x4096 S4x512x4096 S4x4096x4096 where
  lhsContracting := [1]
  rhsContracting := [1]
  lhsNonContracting := [2]
  rhsNonContracting := [2]
  lhsBatch := [0]
  rhsBatch := [0]
  wf := dot_S4x512x4096_S4x512x4096_S4x4096x4096_1_1_2_2_0_0_wf

class Facts : Prop extends Facts₀ where

variable [Facts]
-- ==== Proof.RefRead.lean ====
/-
  The reference's run read one operation at a time (the generated run and its read-at-an-index lemmas),
  brought in here so that the modules below can cite them.
-/
import proofs.«127408_j72284299591793_1_alg».proof.Proof.Gen.ReferenceIdeal.Read
-- ==== Proof.CxPieces.lean ====
/-
  What the kernel body leaves behind in each of its three control cases, as values.

  The body keeps a running column maximum in a scratch array of 8 identical rows. At a first row tile it fills the
  scratch with minus infinity and then joins the tile's column maxima into it; at a middle tile it joins the tile's
  column maxima into what the tile before left; at a last tile it does the same and then writes the image's loss,
  computed from the scratch, to the output block. So, with `step` the join of one tile into the scratch, `fill` the
  constant minus infinity and `emit` the loss from the scratch:

    first tile  : scratch = step (fill)                (nothing written out)
    middle tile : scratch = step (scratch before)      (nothing written out)
    last tile   : scratch = step (scratch before),  output block = emit (that scratch)

  `step`, `fill` and `emit` are the body's three store payloads (`k0_pay3`, `k0_pay2`, `k0_pay1`). Each lemma reads
  the stores the run found back as one value: a covering store read whole is its payload, and a load of a buffer just
  stored whole is the stored value.
-/
import proofs.«127408_j72284299591793_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen
open Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle tile leaves the scratch at the join of its column maxima into what it found there. -/
theorem scratch_middle (c : Dev nD) (i : grid0.Coords) (a2 : Memref sig .tc .vmem S1x256x512 .bf16) (h2 : a2.IsWhole)
    (a3 : Memref sig .tc .vmem S1x512x4096 .bf16) (h3 : a3.IsWhole) (a4 : Memref sig .tc .vmem S1x8x128 .f32) (h4 : a4.IsWhole)
    (a5 : Memref sig .tc .vmem S8x4096 .f32) (h5 : a5.IsWhole) (hc0 : ¬cond0_0 i) (hc1 : ¬cond0_1 i)
    (x0 : Vec F S1x256x512 .bf16) (x1 : Vec F S1x512x4096 .bf16) (xs0 : Vec F S8x4096 .f32) :
    sout0_B_0 c i a2 h2 a3 h3 a4 h4 a5 h5 hc0 hc1 x0 x1 xs0 = k0_pay3 x0 x1 xs0 := by
  unfold sout0_B_0
  rw [View.read_writes_eq_canon _ _ _ (scover0_B_0 c i a2 h2 a3 h3 a4 h4 a5 h5 hc0 hc1 x0 x1 xs0)]
  unfold kernelRun0_B
  dsimp only
  rw [View.canon_unit_zero hz2]
  simp only [View.readAt_eq_ld, h2.read_unread, h3.read_unread, h5.read_unread, View.ld_unit_zero (S := S1x256x512) hz3,
    View.ld_unit_zero (S := S1x512x4096) hz3, View.ld_unit_zero (S := S8x4096) hz2]

/-- A first tile leaves the scratch at the join of its column maxima into the minus-infinity fill. -/
theorem scratch_first (c : Dev nD) (i : grid0.Coords) (a2 : Memref sig .tc .vmem S1x256x512 .bf16) (h2 : a2.IsWhole)
    (a3 : Memref sig .tc .vmem S1x512x4096 .bf16) (h3 : a3.IsWhole) (a4 : Memref sig .tc .vmem S1x8x128 .f32) (h4 : a4.IsWhole)
    (a5 : Memref sig .tc .vmem S8x4096 .f32) (h5 : a5.IsWhole) (hc0 : cond0_0 i) (hc1 : ¬cond0_1 i)
    (x0 : Vec F S1x256x512 .bf16) (x1 : Vec F S1x512x4096 .bf16) :
    sout0_A_0 c i a2 h2 a3 h3 a4 h4 a5 h5 hc0 hc1 x0 x1 = k0_pay3 x0 x1 (k0_pay2 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S8x4096) hz2, View.readCov_unit_zero (S := S8x4096) _ hz2]
  simp only [View.readAt_eq_ld, h2.read_unread, h3.read_unread, View.ld_unit_zero (S := S1x256x512) hz3,
    View.ld_unit_zero (S := S1x512x4096) hz3]

/-- A last tile leaves the scratch as a middle tile does, -/
theorem scratch_last (c : Dev nD) (i : grid0.Coords) (a2 : Memref sig .tc .vmem S1x256x512 .bf16) (h2 : a2.IsWhole)
    (a3 : Memref sig .tc .vmem S1x512x4096 .bf16) (h3 : a3.IsWhole) (a4 : Memref sig .tc .vmem S1x8x128 .f32) (h4 : a4.IsWhole)
    (a5 : Memref sig .tc .vmem S8x4096 .f32) (h5 : a5.IsWhole) (hc0 : ¬cond0_0 i) (hc1 : cond0_1 i)
    (x0 : Vec F S1x256x512 .bf16) (x1 : Vec F S1x512x4096 .bf16) (xs0 : Vec F S8x4096 .f32) :
    sout0_C_0 c i a2 h2 a3 h3 a4 h4 a5 h5 hc0 hc1 x0 x1 xs0 = k0_pay3 x0 x1 xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz2]
  simp only [View.readAt_eq_ld, h2.read_unread, h3.read_unread, h5.read_unread, View.ld_unit_zero (S := S1x256x512) hz3,
    View.ld_unit_zero (S := S1x512x4096) hz3, View.ld_unit_zero (S := S8x4096) hz2]

/-- and the output block at the loss computed from that scratch. -/
theorem output_last (c : Dev nD) (i : grid0.Coords) (a2 : Memref sig .tc .vmem S1x256x512 .bf16) (h2 : a2.IsWhole)
    (a3 : Memref sig .tc .vmem S1x512x4096 .bf16) (h3 : a3.IsWhole) (a4 : Memref sig .tc .vmem S1x8x128 .f32) (h4 : a4.IsWhole)
    (a5 : Memref sig .tc .vmem S8x4096 .f32) (h5 : a5.IsWhole) (hc0 : ¬cond0_0 i) (hc1 : cond0_1 i)
    (x0 : Vec F S1x256x512 .bf16) (x1 : Vec F S1x512x4096 .bf16) (xs0 : Vec F S8x4096 .f32) :
    out0_C_2 c i a2 h2 a3 h3 a4 h4 a5 h5 hc0 hc1 x0 x1 xs0 = k0_pay1 (k0_pay3 x0 x1 xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz3, View.readCov_unit_zero (S := S8x4096) _ hz2]
  simp only [View.readAt_eq_ld, h2.read_unread, h3.read_unread, h5.read_unread, View.ld_unit_zero (S := S1x256x512) hz3,
    View.ld_unit_zero (S := S1x512x4096) hz3, View.ld_unit_zero (S := S8x4096) hz2]

end Cert.KernelIdeal.Pieces

end
-- ==== Proof.CxSpec.lean ====
/-
  The contextual loss of one image, as plain functions on the extended reals.

  For one image let a_i (i < 4096) be the rows of the normalised prediction features, each a vector of 512 channels,
  and let B be the 512 x 4096 matrix of normalised target features. Then, with every operation the exact one on the
  extended reals and every literal the float word the programs spell:

    dist a B j   = 1 - sum over c of a c * B c j                       the cosine distance of row a to column j
    dmin a B     = the least dist a B j over j (from plus infinity)
    wgt a B j    = exp ((1 - dist a B j / (dmin a B + eps)) / 1)
    cx a B j     = wgt a B j / (sum over j' of wgt a B j')             row a's normalised affinity to column j
    colmax A B j = the greatest cx (A i) B j over the rows i of A (from minus infinity)
    loss M       = - log ((sum over j of M j) / 4096 + eps)

  The image's loss is loss (colmax A B). Both programs compute exactly this; they differ in how the maximum over the
  rows is taken (all rows at once, or tile by tile into a running maximum) and in a mean over eight identical rows.
-/
import Idealize.ShloMosaic.PureOps.Ideal

noncomputable section

namespace Cert.CxSpec

open Idealize.ShloMosaic

/-- The float words the formulas use. -/
abbrev one : EReal := Ideal.ofBits .f32 0x3F800000#32
abbrev eps : EReal := Ideal.ofBits .f32 0x3727C5AC#32
abbrev posInf : EReal := Ideal.ofBits .f32 0x7F800000#32
abbrev negInf : EReal := Ideal.ofBits .f32 0xFF800000#32
abbrev c4096 : EReal := Ideal.ofBits .f32 0x45800000#32

/-- The cosine distance of the row `a` to column `j` of `B`. -/
def dist (a : Fin 512 → EReal) (B : Fin 512 → Fin 4096 → EReal) (j : Fin 4096) : EReal :=
  one - ∑ c : Fin 512, a c * B c j

/-- The row's least distance. -/
def dmin (a : Fin 512 → EReal) (B : Fin 512 → Fin 4096 → EReal) : EReal :=
  (Finset.univ : Finset (Fin 4096)).fold min posInf (fun j => dist a B j)

/-- The row's weight on column `j`. -/
def wgt (a : Fin 512 → EReal) (B : Fin 512 → Fin 4096 → EReal) (j : Fin 4096) : EReal :=
  Ideal.exp (Ideal.div (one - Ideal.div (dist a B j) (dmin a B + eps)) one)

/-- The row's weights normalised by their sum. -/
def cx (a : Fin 512 → EReal) (B : Fin 512 → Fin 4096 → EReal) (j : Fin 4096) : EReal :=
  Ideal.div (wgt a B j) (∑ j' : Fin 4096, wgt a B j')

/-- The greatest normalised weight on column `j` over a family of rows. -/
def colmax {ι : Type} [Fintype ι] (A : ι → Fin 512 → EReal) (B : Fin 512 → Fin 4096 → EReal) (j : Fin 4096) : EReal :=
  (Finset.univ : Finset ι).fold max negInf (fun i => cx (A i) B j)

/-- One image's loss from its column maxima. -/
def loss (M : Fin 4096 → EReal) : EReal :=
  -(Ideal.log (Ideal.div (∑ j : Fin 4096, M j) c4096 + eps))

end Cert.CxSpec

end
-- ==== Proof.LibKeepdims.lean ====
/-
  The two "keepdims" column forms of a row reduction's result, read at an index.

  A length-a vector cast to an a by 1 column reads, at (i, u), the vector at i; an a by 1 column broadcast to a by b
  reads, at (p, c), the column at p. Together: a per-row quantity (a row's maximum, a row's sum) spread back over the
  row's entries.
-/
import Idealize.ShloMosaic.Lib.Pipeline.Value
import Idealize.ShloMosaic.Lib.ValueIdx

namespace Idealize.ShloMosaic.Keepdims

open Idealize.ShloMosaic Idealize.ShloMosaic.ValueIdx Idealize.ShloMosaic.Pipeline

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a per-row quantity spread over the row. -/
theorem column_spread {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Keepdims
-- ==== Proof.LibMatmulRows.lean ====
/-
  A rank-2 by rank-2 matrix product read at an index, at the ideal instance.

  For dimension numbers that contract the left operand's axis 1 with the right operand's axis 0 and have no batch
  axis, the entry (r, c) of the product into a zero accumulator is the plain sum over k of a(r, k) * b(k, c) on the
  extended reals; the same for the host's dot_general. The two side facts about the free axes (hl0, hr1) are
  decided once per literal record of dimension numbers.
-/
import Idealize.ShloMosaic.PureOps.Ideal.Laws
import Idealize.ShloMosaic.Lib.ValueIdx

noncomputable section

namespace Idealize.ShloMosaic.MatmulRows

open Idealize.ShloMosaic Idealize.ShloMosaic.ValueIdx

variable {M K N : Nat} {φ₁ φ₂ : FTy}

/-- The operand indices of such a product at output index `i` and contraction position `k` are (i 0, k) and (k, i 1). -/
theorem operand_indices
    (d : DotDims (⟨2, ![M, K]⟩ : Shape) (⟨2, ![K, N]⟩ : Shape) (⟨2, ![M, N]⟩ : Shape))
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (i : (⟨2, ![M, N]⟩ : Shape).Idx) (k : Fin K) :
    d.lhsIdx i ((contrEquiv1 d K hrk hs).symm k) = ix2 (i 0) k
    ∧ d.rhsIdx i ((contrEquiv1 d K hrk hs).symm k) = ix2 k (i 1) := by
  have hk := contrEquiv1_symm_val d K hrk hs k
  constructor
  · funext ax
    apply Fin.ext
    match ax with
    | ⟨0, _⟩ => exact hl0 _ _
    | ⟨1, _⟩ => exact (d.lhsIdx_val_of_single hcl _ _).trans hk
  · funext ax
    apply Fin.ext
    match ax with
    | ⟨0, _⟩ => exact (d.rhsIdx_val_of_single hcr _ _).trans hk
    | ⟨1, _⟩ => exact hr1 _ _

/-- A kernel's matrix product into the zero accumulator, entry by entry. -/
theorem matmul_zero_apply
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.matmul d prec a b (constant (F := Ideal) (⟨2, ![M, N]⟩ : Shape) .f32 0x00000000#32) i
      = ∑ k : Fin K, a (ix2 (i 0) k) * b (ix2 k (i 1)) := by
  rw [Ideal.matmul_constant_zero_apply, ← Equiv.sum_comp (contrEquiv1 d K hrk hs).symm]
  refine Finset.sum_congr rfl fun k _ => ?_
  obtain ⟨el, er⟩ := operand_indices d hcl hcr hrk hs hl0 hr1 i k
  rw [el, er]
  rfl

/-- The same with the factors named: whatever the left operand's row and the right operand's column are known to be. -/
theorem matmul_zero_rows
    (d : DotDims (⟨2, ![M, K]⟩ : Shape) (⟨2, ![K, N]⟩ : Shape) (⟨2, ![M, N]⟩ : Shape)) (prec : Option ContractPrecision)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) (L R : Fin K → EReal)
    (hl : ∀ k, a (ix2 (i 0) k) = L k) (hr : ∀ k, b (ix2 k (i 1)) = R k) :
    FloatOps.matmul d prec a b (constant (F := Ideal) (⟨2, ![M, N]⟩ : Shape) .f32 0x00000000#32) i
      = ∑ k : Fin K, L k * R k :=
  (matmul_zero_apply d prec hcl hcr hrk hs hl0 hr1 a b i).trans
    (Finset.sum_congr rfl fun k _ => by rw [hl k, hr k])

/-- The host's dot_general, entry by entry: the same sum. -/
theorem dotGeneral_apply
    (d : DotDims (⟨2, ![M, K]⟩ : Shape) (⟨2, ![K, N]⟩ : Shape) (⟨2, ![M, N]⟩ : Shape)) (prec : Option ContractPrecision)
    (sched : HostSchedule)
    (hcl : d.lhsContracting = [1]) (hcr : d.rhsContracting = [0])
    (hrk : d.contr.rank = 1) (hs : d.contr.size ⟨0, by omega⟩ = K)
    (hl0 : ∀ i q, (d.lhsIdx i q 0).val = (i 0).val) (hr1 : ∀ i q, (d.rhsIdx i q 1).val = (i 1).val)
    (a : FVec Ideal (⟨2, ![M, K]⟩ : Shape) φ₁) (b : FVec Ideal (⟨2, ![K, N]⟩ : Shape) φ₂)
    (i : (⟨2, ![M, N]⟩ : Shape).Idx) :
    FloatOps.dotGeneral d prec sched a b i = ∑ k : Fin K, a (ix2 (i 0) k) * b (ix2 k (i 1)) := by
  rw [Ideal.dotGeneral_apply, ← Equiv.sum_comp (contrEquiv1 d K hrk hs).symm]
  refine Finset.sum_congr rfl fun k _ => ?_
  obtain ⟨el, er⟩ := operand_indices d hcl hcr hrk hs hl0 hr1 i k
  rw [el, er]
  rfl

end Idealize.ShloMosaic.MatmulRows

end
-- ==== Proof.LibReduceAt.lean ====
/-
  Reductions over one axis read at an index of the result, at the ideal instance, with the reduced index named by
  its coordinates.

  For an a by b array: a row's sum, a row's minimum and a column's maximum (a kernel's vector reductions) are the sum,
  the fold of min and the fold of max over the coordinate that was reduced away, of the array's entries at (i, j).
  For an n by a by b array the host's one-operand reduce with a commutative associative operation, along the last axis
  or along the middle axis, is likewise the fold from its initial value over that coordinate of the entries at
  (n, i, j). The folds are over the whole finite type of the reduced coordinate, in no particular order.
-/
import Idealize.ShloMosaic.PureOps.Ideal.Laws
import Idealize.ShloMosaic.PureOps.Reduce
import Idealize.ShloMosaic.Lib.ValueIdx

noncomputable section

namespace Idealize.ShloMosaic.ReduceAt

open Idealize.ShloMosaic Idealize.ShloMosaic.ValueIdx

variable {a b n : ℕ} {φ : FTy}

/-! ### Rank 2: the index put back by a reduction along the columns' axis, or along the rows' axis -/

theorem lift_along_row (h : (⟨2, ![a, b]⟩ : Shape).Reduces [(1 : Fin 2)] ⟨1, ![a]⟩) (i : Fin a) (j : Fin b) :
    h.lift (ix1 i) j = ix2 i j := by
  funext ax
  apply Fin.ext
  match ax with
  | ⟨0, _⟩ => rfl
  | ⟨1, _⟩ => rfl

theorem lift_along_col (h : (⟨2, ![a, b]⟩ : Shape).Reduces [(0 : Fin 2)] ⟨1, ![b]⟩) (j : Fin b) (i : Fin a) :
    h.lift (ix1 j) i = ix2 i j := by
  funext ax
  apply Fin.ext
  match ax with
  | ⟨0, _⟩ => rfl
  | ⟨1, _⟩ => rfl

/-- A row's sum. -/
theorem row_sum_apply (v : FVec Ideal (⟨2, ![a, b]⟩ : Shape) φ) (acc : BitVec φ.bits)
    (h : (⟨2, ![a, b]⟩ : Shape).Reduces [(1 : Fin 2)] ⟨1, ![a]⟩) (hφ : FKind.Formats φ) (hacc : acc = FKind.add.neutral φ hφ)
    (i : Fin a) :
    multiReduction .add [(1 : Fin 2)] ⟨1, ![a]⟩ v acc h hφ hacc (ix1 i) = ∑ j : Fin b, v (ix2 i j) :=
  (Ideal.multiReduction_add_single v acc h hφ hacc (ix1 i)).trans
    (Finset.sum_congr rfl fun j _ => congrArg v (lift_along_row h i j))

/-- A column's sum. -/
theorem col_sum_apply (v : FVec Ideal (⟨2, ![a, b]⟩ : Shape) φ) (acc : BitVec φ.bits)
    (h : (⟨2, ![a, b]⟩ : Shape).Reduces [(0 : Fin 2)] ⟨1, ![b]⟩) (hφ : FKind.Formats φ) (hacc : acc = FKind.add.neutral φ hφ)
    (j : Fin b) :
    multiReduction .add [(0 : Fin 2)] ⟨1, ![b]⟩ v acc h hφ hacc (ix1 j) = ∑ i : Fin a, v (ix2 i j) :=
  (Ideal.multiReduction_add_single v acc h hφ hacc (ix1 j)).trans
    (Finset.sum_congr rfl fun i _ => congrArg v (lift_along_col h j i))

/-- A row's minimum, from the accumulator's value. -/
theorem row_min_apply (v : FVec Ideal (⟨2, ![a, b]⟩ : Shape) φ) (acc : BitVec φ.bits)
    (h : (⟨2, ![a, b]⟩ : Shape).Reduces [(1 : Fin 2)] ⟨1, ![a]⟩) (hφ : FKind.Formats φ) (hacc : acc = FKind.minimumf.neutral φ hφ)
    (i : Fin a) :
    multiReduction .minimumf [(1 : Fin 2)] ⟨1, ![a]⟩ v acc h hφ hacc (ix1 i)
      = (Finset.univ : Finset (Fin b)).fold min (Ideal.ofBits φ acc) (fun j => v (ix2 i j)) := by
  rw [multiReduction_minimumf_eq_fold, h.fold_filter_drop_single]
  have e : (v ∘ h.lift (ix1 i)) = fun j : Fin b => v (ix2 i j) := funext fun j => congrArg v (lift_along_row h i j)
  rw [e]
  rfl

/-- A column's maximum, from the accumulator's value. -/
theorem col_max_apply (v : FVec Ideal (⟨2, ![a, b]⟩ : Shape) φ) (acc : BitVec φ.bits)
    (h : (⟨2, ![a, b]⟩ : Shape).Reduces [(0 : Fin 2)] ⟨1, ![b]⟩) (hφ : FKind.Formats φ) (hacc : acc = FKind.maximumf.neutral φ hφ)
    (j : Fin b) :
    multiReduction .maximumf [(0 : Fin 2)] ⟨1, ![b]⟩ v acc h hφ hacc (ix1 j)
      = (Finset.univ : Finset (Fin a)).fold max (Ideal.ofBits φ acc) (fun i => v (ix2 i j)) := by
  rw [Ideal.multiReduction_maximumf_single]
  have e : (v ∘ h.lift (ix1 j)) = fun i : Fin a => v (ix2 i j) := funext fun i => congrArg v (lift_along_col h j i)
  rw [e]
  rfl

/-! ### Rank 3: the host's reduce along the last axis, or along the middle axis -/

theorem lift_along_last (h : (⟨3, ![n, a, b]⟩ : Shape).Reduces [(2 : Fin 3)] ⟨2, ![n, a]⟩) (p : Fin n) (i : Fin a) (j : Fin b) :
    h.lift (ix2 p i) j = ix3 p i j := by
  funext ax
  apply Fin.ext
  match ax with
  | ⟨0, _⟩ => rfl
  | ⟨1, _⟩ => rfl
  | ⟨2, _⟩ => rfl

theorem lift_along_middle (h : (⟨3, ![n, a, b]⟩ : Shape).Reduces [(1 : Fin 3)] ⟨2, ![n, b]⟩) (p : Fin n) (j : Fin b) (i : Fin a) :
    h.lift (ix2 p j) i = ix3 p i j := by
  funext ax
  apply Fin.ext
  match ax with
  | ⟨0, _⟩ => rfl
  | ⟨1, _⟩ => rfl
  | ⟨2, _⟩ => rfl

/-- The host's reduce along the last axis. -/
theorem host_reduce_last_apply {u : Shape} (f : EReal → EReal → EReal) [Std.Commutative f] [Std.Associative f]
    (x : (⟨3, ![n, a, b]⟩ : Shape).Idx → EReal) (init : u.Idx → EReal)
    (h' : (⟨3, ![n, a, b]⟩ : Shape).ReducesTo [(2 : Fin 3)] ⟨2, ![n, a]⟩) (hu : 0 < u.numel)
    (h : (⟨3, ![n, a, b]⟩ : Shape).Reduces [(2 : Fin 3)] ⟨2, ![n, a]⟩) (p : Fin n) (i : Fin a) :
    Host.reduce f x init h' hu (ix2 p i)
      = (Finset.univ : Finset (Fin b)).fold f (init (Shape.Idx.first hu)) (fun j => x (ix3 p i j)) := by
  rw [Host.reduce_eq_fold, Shape.ReducesTo.drop_eq_drop h' h, h.fold_filter_drop_single]
  have e : (x ∘ h.lift (ix2 p i)) = fun j : Fin b => x (ix3 p i j) := funext fun j => congrArg x (lift_along_last h p i j)
  rw [e]
  rfl

/-- The host's reduce along the middle axis. -/
theorem host_reduce_middle_apply {u : Shape} (f : EReal → EReal → EReal) [Std.Commutative f] [Std.Associative f]
    (x : (⟨3, ![n, a, b]⟩ : Shape).Idx → EReal) (init : u.Idx → EReal)
    (h' : (⟨3, ![n, a, b]⟩ : Shape).ReducesTo [(1 : Fin 3)] ⟨2, ![n, b]⟩) (hu : 0 < u.numel)
    (h : (⟨3, ![n, a, b]⟩ : Shape).Reduces [(1 : Fin 3)] ⟨2, ![n, b]⟩) (p : Fin n) (j : Fin b) :
    Host.reduce f x init h' hu (ix2 p j)
      = (Finset.univ : Finset (Fin a)).fold f (init (Shape.Idx.first hu)) (fun i => x (ix3 p i j)) := by
  rw [Host.reduce_eq_fold, Shape.ReducesTo.drop_eq_drop h' h, h.fold_filter_drop_single]
  have e : (x ∘ h.lift (ix2 p j)) = fun i : Fin a => x (ix3 p i j) := funext fun i => congrArg x (lift_along_middle h p j i)
  rw [e]
  rfl

end Idealize.ShloMosaic.ReduceAt

end
-- ==== Proof.CxTile.lean ====
/-
  One row tile of the kernel body, read entry by entry at the ideal instance.

  The body is handed 256 rows of the normalised prediction features (a 1 x 256 x 512 block x0) and the whole
  512 x 4096 matrix of normalised target features (a 1 x 512 x 4096 block x1), and the running column maximum
  (8 identical rows of 4096). Its arithmetic is, stage by stage, the specification's: the distance of row i to column j,
  the row's least distance, the row's weights, the weights normalised by their row sum, and the greatest normalised
  weight of each column over the tile's 256 rows; that column maximum is then joined into every row of the running
  maximum. The fill is minus infinity everywhere. The last tile's output is, in every entry, minus the logarithm of
  (the mean over the 8 rows of (the row's sum divided by 4096)) plus epsilon.
-/
import proofs.«127408_j72284299591793_1_alg».proof.Proof.Gen.KernelIdeal.Skeleton
import proofs.«127408_j72284299591793_1_alg».proof.Proof.CxSpec
import proofs.«127408_j72284299591793_1_alg».proof.Proof.LibKeepdims
import proofs.«127408_j72284299591793_1_alg».proof.Proof.LibMatmulRows
import proofs.«127408_j72284299591793_1_alg».proof.Proof.LibReduceAt
import Idealize.ShloMosaic.Lib.ValueLayout
import Idealize.ShloMosaic.Lib.Pipeline.Value

set_option maxRecDepth 16384

noncomputable section

namespace Cert.KernelIdeal.Tile

open Cert.KernelIdeal Cert.KernelIdeal.Gen Cert.CxSpec
open Idealize.ShloMosaic Idealize.ShloMosaic.ValueIdx
open Idealize.ShloMosaic.Keepdims Idealize.ShloMosaic.MatmulRows Idealize.ShloMosaic.ReduceAt

variable (x0 : Vec Ideal S1x256x512 .bf16) (x1 : Vec Ideal S1x512x4096 .bf16)

/-- The tile's rows and the target matrix, as families of extended reals. -/
abbrev rowsOf : Fin 256 → Fin 512 → EReal := fun i c => x0 (ix3 (0 : Fin 1) i c)
abbrev colsOf : Fin 512 → Fin 4096 → EReal := fun c j => x1 (ix3 (0 : Fin 1) c j)

/-! ### The matrix product's two free axes -/

theorem dot_lhs_free (i : S256x4096.Idx) (q : dot_S256x512_S512x4096_S256x4096_1_0_0_1_n_n.contr.Idx) :
    (dot_S256x512_S512x4096_S256x4096_1_0_0_1_n_n.lhsIdx i q 0).val = (i 0).val := by
  unfold DotDims.lhsIdx
  rw [dif_neg (show ¬(0 : Fin S256x512.rank) ∈ dot_S256x512_S512x4096_S256x4096_1_0_0_1_n_n.lhsBatch by decide),
    dif_pos (show (0 : Fin S256x512.rank) ∈ dot_S256x512_S512x4096_S256x4096_1_0_0_1_n_n.lhsNonContracting by decide)]
  rfl

theorem dot_rhs_free (i : S256x4096.Idx) (q : dot_S256x512_S512x4096_S256x4096_1_0_0_1_n_n.contr.Idx) :
    (dot_S256x512_S512x4096_S256x4096_1_0_0_1_n_n.rhsIdx i q 1).val = (i 1).val := by
  unfold DotDims.rhsIdx
  rw [dif_neg (show ¬(1 : Fin S512x4096.rank) ∈ dot_S256x512_S512x4096_S256x4096_1_0_0_1_n_n.rhsBatch by decide),
    dif_pos (show (1 : Fin S512x4096.rank) ∈ dot_S256x512_S512x4096_S256x4096_1_0_0_1_n_n.rhsNonContracting by decide)]
  rfl

/-! ### The stages -/

/-- Distances: one minus the product of the tile's rows with the target matrix. -/
def distV : FVec Ideal S256x4096 .f32 :=
  subf (broadcast S256x4096 (Scalar.ofBits .f32 0x3F800000#32))
    (matmul dot_S256x512_S512x4096_S256x4096_1_0_0_1_n_n none
      (shapeCast S256x512 x0 shapeCasts_S1x256x512_S256x512 : FVec Ideal S256x512 .bf16)
      (shapeCast S512x4096 x1 shapeCasts_S1x512x4096_S512x4096 : FVec Ideal S512x4096 .bf16)
      (constant S256x4096 .f32 0x00000000#32))

theorem distV_apply (i : Fin 256) (j : Fin 4096) : distV x0 x1 (ix2 i j) = CxSpec.dist (rowsOf x0 i) (colsOf x1) j := by
  unfold distV CxSpec.dist
  show one - FloatOps.matmul dot_S256x512_S512x4096_S256x4096_1_0_0_1_n_n none _ _ (constant (F := Ideal) S256x4096 .f32 0x00000000#32) (ix2 i j) = _
  rw [matmul_zero_rows dot_S256x512_S512x4096_S256x4096_1_0_0_1_n_n none rfl rfl rfl rfl dot_lhs_free dot_rhs_free _ _ (ix2 i j)
    (rowsOf x0 i) (fun c => colsOf x1 c j)
    (fun k => shapeCast_1ab_ab_apply x0 shapeCasts_S1x256x512_S256x512 i k)
    (fun k => shapeCast_1ab_ab_apply x1 shapeCasts_S1x512x4096_S512x4096 k j)]

/-- Each row's least distance. -/
def dminV : FVec Ideal S256 .f32 :=
  multiReduction .minimumf [1] S256 (distV x0 x1) 0x7F800000#32 reduces_S256x4096_S256 (.inl rfl) rfl

theorem dminV_apply (i : Fin 256) : dminV x0 x1 (ix1 i) = dmin (rowsOf x0 i) (colsOf x1) := by
  unfold dminV dmin
  refine (row_min_apply (distV x0 x1) 0x7F800000#32 reduces_S256x4096_S256 (.inl rfl) rfl i).trans ?_
  exact congrArg (fun g : Fin 4096 → EReal => Finset.fold min posInf g Finset.univ) (funext fun j => distV_apply x0 x1 i j)

/-- Weights. -/
def wgtV : FVec Ideal S256x4096 .f32 :=
  exp (divf (subf (broadcast S256x4096 (Scalar.ofBits .f32 0x3F800000#32))
      (divf (distV x0 x1) (broadcastTo S256x4096 (addf (shapeCast S256x1 (dminV x0 x1) shapeCasts_S256_S256x1)
        (broadcast S256x1 (Scalar.ofBits .f32 0x3727C5AC#32))) broadcasts_S256x1_S256x4096)))
    (broadcast S256x4096 (Scalar.ofBits .f32 0x3F800000#32)))

/-- The weight stage over any array of distances and any vector of row minima. -/
theorem wgt_stage_apply (d : FVec Ideal S256x4096 .f32) (mn : FVec Ideal S256 .f32) (i : Fin 256) (j : Fin 4096) :
    exp (divf (subf (broadcast S256x4096 (Scalar.ofBits .f32 0x3F800000#32))
        (divf d (broadcastTo S256x4096 (addf (shapeCast S256x1 mn shapeCasts_S256_S256x1)
          (broadcast S256x1 (Scalar.ofBits .f32 0x3727C5AC#32))) broadcasts_S256x1_S256x4096)))
      (broadcast S256x4096 (Scalar.ofBits .f32 0x3F800000#32))) (ix2 i j)
      = Ideal.exp (Ideal.div (one - Ideal.div (d (ix2 i j)) (mn (ix1 i) + eps)) one) := by
  have hb : broadcastTo S256x4096 (addf (shapeCast S256x1 mn shapeCasts_S256_S256x1)
      (broadcast S256x1 (Scalar.ofBits .f32 0x3727C5AC#32))) broadcasts_S256x1_S256x4096 (ix2 i j) = mn (ix1 i) + eps :=
    (broadcastTo_a1_ab_apply _ broadcasts_S256x1_S256x4096 i j).trans
      (congrArg (fun z : EReal => z + eps) (shapeCast_a_a1_apply mn shapeCasts_S256_S256x1 i (0 : Fin 1)))
  exact congrArg (fun z : EReal => Ideal.exp (Ideal.div (one - Ideal.div (d (ix2 i j)) z) one)) hb

theorem wgtV_apply (i : Fin 256) (j : Fin 4096) : wgtV x0 x1 (ix2 i j) = wgt (rowsOf x0 i) (colsOf x1) j := by
  unfold wgtV wgt
  refine (wgt_stage_apply (distV x0 x1) (dminV x0 x1) i j).trans ?_
  rw [distV_apply, dminV_apply]

/-- Weights normalised by their row sums. -/
def cxV : FVec Ideal S256x4096 .f32 :=
  divf (wgtV x0 x1) (broadcastTo S256x4096 (shapeCast S256x1
    (multiReduction .add [1] S256 (wgtV x0 x1) 0x00000000#32 reduces_S256x4096_S256 (.inl rfl) rfl) shapeCasts_S256_S256x1)
    broadcasts_S256x1_S256x4096)

theorem cxV_apply (i : Fin 256) (j : Fin 4096) : cxV x0 x1 (ix2 i j) = cx (rowsOf x0 i) (colsOf x1) j := by
  unfold cxV cx
  show Ideal.div (wgtV x0 x1 (ix2 i j)) (broadcastTo S256x4096 (shapeCast S256x1 _ shapeCasts_S256_S256x1) broadcasts_S256x1_S256x4096 (ix2 i j)) = _
  rw [column_spread, wgtV_apply]
  refine congrArg (fun z => Ideal.div (wgt (rowsOf x0 i) (colsOf x1) j) z) ?_
  refine (row_sum_apply (wgtV x0 x1) 0x00000000#32 reduces_S256x4096_S256 (.inl rfl) rfl i).trans ?_
  exact Finset.sum_congr rfl fun j' _ => wgtV_apply x0 x1 i j'

/-- Each column's greatest normalised weight over the tile's rows. -/
def colmaxV : FVec Ideal S4096 .f32 :=
  multiReduction .maximumf [0] S4096 (cxV x0 x1) 0xFF800000#32 reduces_S256x4096_S4096 (.inl rfl) rfl

theorem colmaxV_apply (j : Fin 4096) : colmaxV x0 x1 (ix1 j) = colmax (rowsOf x0) (colsOf x1) j := by
  unfold colmaxV colmax
  refine (col_max_apply (cxV x0 x1) 0xFF800000#32 reduces_S256x4096_S4096 (.inl rfl) rfl j).trans ?_
  exact congrArg (fun g : Fin 256 → EReal => Finset.fold max negInf g Finset.univ) (funext fun i => cxV_apply x0 x1 i j)

end Cert.KernelIdeal.Tile

end
-- ==== Proof.CxStep.lean ====
/-
  The body's scratch payloads, from the stages of one row tile: the join of a tile's column maxima into the running
  maximum is, entry by entry, the greater of what was there and the tile's column maximum; the fill is minus infinity.
-/
import proofs.«127408_j72284299591793_1_alg».proof.Proof.CxTile

set_option maxRecDepth 16384

noncomputable section

namespace Cert.KernelIdeal.Tile

open Cert.KernelIdeal Cert.KernelIdeal.Gen Cert.CxSpec
open Idealize.ShloMosaic Idealize.ShloMosaic.ValueIdx

variable (x0 : Vec Ideal S1x256x512 .bf16) (x1 : Vec Ideal S1x512x4096 .bf16)

/-- The join of a tile into the running maximum is the composition of the stages (the two sides are one term once the
    stages are written out; the last cast is the identity). -/
theorem step_eq (acc : Vec Ideal S8x4096 .f32) :
    k0_pay3 (F := Ideal) x0 x1 acc
      = maximumf acc (broadcastTo S8x4096 (shapeCast S1x4096 (shapeCast S1x4096 (colmaxV x0 x1) shapeCasts_S4096_S1x4096)
          shapeCasts_S1x4096_S1x4096) broadcasts_S1x4096_S8x4096) := by
  unfold k0_pay3 colmaxV cxV wgtV dminV distV
  dsimp only
  exact shapeCast_self _ _

/-- Entry (k, j) of the running maximum after the tile: the greater of what was there and the tile's column maximum. -/
theorem step_apply (acc : Vec Ideal S8x4096 .f32) (k : Fin 8) (j : Fin 4096) :
    k0_pay3 (F := Ideal) x0 x1 acc (ix2 k j) = max (acc (ix2 k j)) (colmax (rowsOf x0) (colsOf x1) j) := by
  rw [step_eq]
  refine congrArg (fun z : EReal => max (acc (ix2 k j)) z) ?_
  refine (broadcastTo_1b_ab_apply _ broadcasts_S1x4096_S8x4096 k j).trans ?_
  rw [shapeCast_self]
  exact (shapeCast_a_1a_apply _ shapeCasts_S4096_S1x4096 (0 : Fin 1) j).trans (colmaxV_apply x0 x1 j)

/-- The fill is minus infinity everywhere. -/
theorem fill_apply (i : S8x4096.Idx) : k0_pay2 (F := Ideal) i = negInf := by
  unfold k0_pay2
  rw [shapeCast_self]
  rfl

end Cert.KernelIdeal.Tile

end
-- ==== Proof.CxConsts.lean ====
/-
  The float words this kernel spells whose VALUE the proof uses, as the extended reals they denote at the ideal
  instance: the pattern of minus infinity (the identity of a maximum) and the pattern of 8.0 (the number of identical
  rows the kernel averages over). Every other literal appears as the same word on both sides and is never evaluated.
  Stated here once, so that no other module unfolds a pattern.
-/
import Idealize.ShloMosaic.PureOps.Ideal

noncomputable section

namespace Cert.CxConsts

open Idealize.ShloMosaic

/-- The word `0xFF800000` denotes minus infinity, the least extended real. -/
theorem ofBits_neg_inf : Ideal.ofBits .f32 0xFF800000#32 = (⊥ : EReal) := by
  simp [Ideal.ofBits, Ideal.ieee]

/-- The word `0x41000000` denotes the real number 8. -/
theorem ofBits_eight : Ideal.ofBits .f32 0x41000000#32 = ((8 : ℝ) : EReal) := by
  simp [Ideal.ofBits, Ideal.ieee, -EReal.coe_mul]; norm_num

end Cert.CxConsts

end
-- ==== Proof.LibSupBlocks.lean ====
/-
  Two facts about finite suprema and one about the extended reals, general in their types.

  * A supremum over the first a + B indices of Fin N is the supremum over the first a joined with the supremum over
    the block of B indices that follows them: what a running maximum accumulated block by block along an axis holds
    after each block. With a = 0 the first part is empty (its supremum is the least element); with a + B = N the
    left side is the supremum over every index.
  * A fold of max from the least element is that supremum.
  * On the extended reals, the sum of eight copies of one value divided by 8 is that value, with no finiteness
    assumed (both infinities survive the sum and the division), and zero minus a value is its negation.
-/
import Idealize.ShloMosaic.PureOps.Ideal

noncomputable section

namespace Idealize.ShloMosaic.SupBlocks

open Finset

section Lattice
variable {α : Type*} [SemilatticeSup α] [OrderBot α]

/-- The indices below `a + B` are those below `a` and the block `a, …, a + B - 1`. -/
theorem sup_filter_lt_add {N : ℕ} (g : Fin N → α) (a B : ℕ) (h : a + B ≤ N) :
    (univ.filter (fun i : Fin N => i.val < a + B)).sup g
      = (univ.filter (fun i : Fin N => i.val < a)).sup g ⊔ univ.sup (fun b : Fin B => g ⟨a + b.val, by omega⟩) := by
  apply le_antisymm
  · apply Finset.sup_le
    intro i hi
    have hi' : i.val < a + B := (Finset.mem_filter.mp hi).2
    by_cases hlt : i.val < a
    · exact le_sup_of_le_left (Finset.le_sup (f := g) (Finset.mem_filter.mpr ⟨Finset.mem_univ _, hlt⟩))
    · have hb : i.val - a < B := by omega
      have e : i = ⟨a + (⟨i.val - a, hb⟩ : Fin B).val, by have := i.isLt; omega⟩ := Fin.ext (by show i.val = a + (i.val - a); omega)
      refine le_sup_of_le_right ?_
      rw [e]
      exact Finset.le_sup (f := fun b : Fin B => g ⟨a + b.val, by omega⟩) (Finset.mem_univ (⟨i.val - a, hb⟩ : Fin B))
  · apply sup_le
    · apply Finset.sup_le
      intro i hi
      have hi' : i.val < a := (Finset.mem_filter.mp hi).2
      exact Finset.le_sup (f := g) (Finset.mem_filter.mpr ⟨Finset.mem_univ _, by omega⟩)
    · apply Finset.sup_le
      intro b _
      exact Finset.le_sup (f := g) (Finset.mem_filter.mpr ⟨Finset.mem_univ _, by show a + b.val < a + B; have := b.isLt; omega⟩)

/-- Below `0` there is no index. -/
theorem sup_filter_lt_zero {N : ℕ} (g : Fin N → α) : (univ.filter (fun i : Fin N => i.val < 0)).sup g = ⊥ := by
  rw [Finset.filter_false_of_mem (fun i _ => Nat.not_lt_zero _), Finset.sup_empty]

/-- Below `N` is every index. -/
theorem sup_filter_lt_all {N : ℕ} (g : Fin N → α) : (univ.filter (fun i : Fin N => i.val < N)).sup g = univ.sup g := by
  rw [Finset.filter_true_of_mem (fun i _ => i.isLt)]

end Lattice

/-- A fold of `max` from the least extended real is the supremum. -/
theorem fold_max_bot_eq_sup {ι : Type*} (s : Finset ι) (f : ι → EReal) : s.fold max ⊥ f = s.sup f := by
  classical
  induction s using Finset.induction_on with
  | empty => simp
  | insert a s ha ih => rw [Finset.fold_insert ha, Finset.sup_insert, ih]

/-- Eight copies of one extended real, summed and divided by 8, give it back: a real number by arithmetic, an
    infinity because it survives both the sum and the product with a positive real. -/
theorem sum_eight_div_eight (X : EReal) : Ideal.div (∑ _k : Fin 8, X) ((8 : ℝ) : EReal) = X := by
  rw [Ideal.div_coe (by norm_num : (8 : ℝ) ≠ 0), Finset.sum_const, Finset.card_univ, Fintype.card_fin]
  induction X using EReal.rec with
  | bot =>
    have h8 : (8 : ℕ) • (⊥ : EReal) = ⊥ := by simp [succ_nsmul]
    rw [h8, EReal.bot_mul_coe_of_pos (by norm_num)]
  | coe x =>
    have h8 : (8 : ℕ) • ((x : ℝ) : EReal) = ((8 * x : ℝ) : EReal) := by
      rw [← EReal.coe_nsmul]
      congr 1
      rw [nsmul_eq_mul]
      norm_num
    rw [h8, ← EReal.coe_mul]
    congr 1
    ring
  | top =>
    have h8 : (8 : ℕ) • (⊤ : EReal) = ⊤ := by simp [succ_nsmul]
    rw [h8, EReal.top_mul_coe_of_pos (by norm_num)]

/-- Zero minus an extended real is its negation. -/
theorem zero_sub_eq_neg (y : EReal) : (0 : EReal) - y = -y := by
  rw [sub_eq_add_neg, zero_add]

end Idealize.ShloMosaic.SupBlocks

end
-- ==== Proof.CxEmit.lean ====
/-
  What a last row tile writes out, read entry by entry at the ideal instance.

  From the running column maximum (8 rows of 4096) the body takes each row's sum divided by 4096, then the sum of those
  8 numbers divided by 8, adds epsilon, takes the logarithm and subtracts it from zero; the one number is spread over
  the whole 1 x 8 x 128 output block. When the 8 rows are one and the same function M of the column — as they always
  are: every row receives the same column maxima — the 8 row means are one number X, their sum over 8 divided by 8 is
  X again (for a real X by arithmetic, for an infinite X because the infinity survives the sum and the division), and
  zero minus the logarithm is its negation: every entry is loss M.
-/
import proofs.«127408_j72284299591793_1_alg».proof.Proof.Gen.KernelIdeal.Skeleton
import proofs.«127408_j72284299591793_1_alg».proof.Proof.CxSpec
import proofs.«127408_j72284299591793_1_alg».proof.Proof.CxConsts
import proofs.«127408_j72284299591793_1_alg».proof.Proof.LibKeepdims
import proofs.«127408_j72284299591793_1_alg».proof.Proof.LibReduceAt
import proofs.«127408_j72284299591793_1_alg».proof.Proof.LibSupBlocks
import Idealize.ShloMosaic.Lib.ValueLayout
import Idealize.ShloMosaic.Lib.Pipeline.Value

noncomputable section

namespace Cert.KernelIdeal.Emit

open Cert.KernelIdeal Cert.KernelIdeal.Gen Cert.CxSpec
open Idealize.ShloMosaic Idealize.ShloMosaic.ValueIdx
open Idealize.ShloMosaic.Keepdims Idealize.ShloMosaic.ReduceAt Idealize.ShloMosaic.SupBlocks

variable (acc : Vec Ideal S8x4096 .f32)

/-- A 1 by 1 array spread over a by b reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) :=
  broadcastTo_apply v h (ix2 p q) (ix2 (0 : Fin 1) (0 : Fin 1)) fun ax => match ax with
    | ⟨0, _⟩ => rfl
    | ⟨1, _⟩ => rfl

/-- Each row's sum divided by 4096, as a column. -/
def rowMeanV : FVec Ideal S8x1 .f32 :=
  divf (shapeCast S8x1 (multiReduction .add [1] S8 acc 0x00000000#32 reduces_S8x4096_S8 (.inl rfl) rfl) shapeCasts_S8_S8x1)
    (broadcast S8x1 (Scalar.ofBits .f32 0x45800000#32))

theorem rowMeanV_apply (k : Fin 8) :
    rowMeanV acc (ix2 k (0 : Fin 1)) = Ideal.div (∑ j : Fin 4096, acc (ix2 k j)) c4096 := by
  unfold rowMeanV
  show Ideal.div (shapeCast S8x1 _ shapeCasts_S8_S8x1 (ix2 k (0 : Fin 1))) c4096 = _
  rw [shapeCast_a_a1_apply]
  exact congrArg (fun z => Ideal.div z c4096) (row_sum_apply acc 0x00000000#32 reduces_S8x4096_S8 (.inl rfl) rfl k)

/-- The sum of the 8 row means divided by 8. -/
def meanV : FVec Ideal S1x1 .f32 :=
  divf (shapeCast S1x1 (multiReduction .add [0] S1 (rowMeanV acc) 0x00000000#32 reduces_S8x1_S1 (.inl rfl) rfl) shapeCasts_S1_S1x1)
    (broadcast S1x1 (Scalar.ofBits .f32 0x41000000#32))

theorem meanV_apply :
    meanV acc (ix2 (0 : Fin 1) (0 : Fin 1))
      = Ideal.div (∑ k : Fin 8, Ideal.div (∑ j : Fin 4096, acc (ix2 k j)) c4096) (Ideal.ofBits .f32 0x41000000#32) := by
  unfold meanV
  show Ideal.div (shapeCast S1x1 _ shapeCasts_S1_S1x1 (ix2 (0 : Fin 1) (0 : Fin 1))) (Ideal.ofBits .f32 0x41000000#32) = _
  rw [shapeCast_a_a1_apply]
  refine congrArg (fun z => Ideal.div z (Ideal.ofBits .f32 0x41000000#32)) ?_
  refine (col_sum_apply (rowMeanV acc) 0x00000000#32 reduces_S8x1_S1 (.inl rfl) rfl (0 : Fin 1)).trans ?_
  exact Finset.sum_congr rfl fun k _ => rowMeanV_apply acc k

/-- The output payload is the composition of the stages. -/
theorem emit_eq :
    k0_pay1 (F := Ideal) acc
      = shapeCast S1x8x128 (broadcastTo S8x128 (shapeCast S1x1
          (subf (broadcast S1x1 (Scalar.ofBits .f32 0x00000000#32))
            (log (addf (meanV acc) (broadcast S1x1 (Scalar.ofBits .f32 0x3727C5AC#32)))))
          shapeCasts_S1x1_S1x1) broadcasts_S1x1_S8x128) shapeCasts_S8x128_S1x8x128 := rfl

/-- Every entry of the output block. -/
theorem emit_apply (y : S1x8x128.Idx) :
    k0_pay1 (F := Ideal) acc y
      = Ideal.ofBits .f32 0x00000000#32 - Ideal.log (meanV acc (ix2 (0 : Fin 1) (0 : Fin 1)) + eps) := by
  obtain ⟨u, s, l, rfl⟩ : ∃ (u : Fin 1) (s : Fin 8) (l : Fin 128), y = ix3 u s l := ⟨y 0, y 1, y 2, eq_ix3 y⟩
  rw [emit_eq, shapeCast_ab_1ab_apply, broadcastTo_11_ab_apply, shapeCast_self]
  rfl

/-- When every row of the running maximum is the one function `M` of the column, every entry is `loss M`. -/
theorem emit_of_rows (M : Fin 4096 → EReal) (h : ∀ k j, acc (ix2 k j) = M j) (y : S1x8x128.Idx) :
    k0_pay1 (F := Ideal) acc y = loss M := by
  rw [emit_apply, meanV_apply]
  have hrow : ∀ k : Fin 8, Ideal.div (∑ j : Fin 4096, acc (ix2 k j)) c4096 = Ideal.div (∑ j : Fin 4096, M j) c4096 :=
    fun k => congrArg (fun z => Ideal.div z c4096) (Finset.sum_congr rfl fun j _ => h k j)
  rw [Finset.sum_congr rfl (fun k _ => hrow k), Cert.CxConsts.ofBits_eight, sum_eight_div_eight, Ideal.ofBits_zero_f32,
    zero_sub_eq_neg]
  rfl

end Cert.KernelIdeal.Emit

end
-- ==== Proof.CxGrid.lean ====
/-
  The kernel over its grid: what the running column maximum holds after every grid point, and what the output array
  holds after the run.

  The grid is 4 images by 16 row tiles, point t = 16 n + r. At point t the body is handed rows 256 r … 256 r + 255 of
  image n's prediction features and the whole of image n's target matrix. Writing, for image n and column j,
  top (n, a, j) for the greatest normalised weight cx (row i of image n) (target matrix of image n) j over the rows
  i < a, the running maximum holds after point t, in each of its 8 rows, top (n, 256 r + 256, j): at r = 0 the fill is
  top (n, 0, j), the least element, and each tile joins its own 256 rows (the supremum over the first a + 256 indices is
  the supremum over the first a joined with the next block's). After r = 15 this is the maximum over all 4096 rows, and
  the point writes image n's loss to every entry of output block n. The 4 flushing points cover the output array.
-/
import proofs.«127408_j72284299591793_1_alg».proof.Proof.Gen.KernelIdeal.Frame
import proofs.«127408_j72284299591793_1_alg».proof.Proof.CxPieces
import proofs.«127408_j72284299591793_1_alg».proof.Proof.CxTile
import proofs.«127408_j72284299591793_1_alg».proof.Proof.CxStep
import proofs.«127408_j72284299591793_1_alg».proof.Proof.CxEmit
import proofs.«127408_j72284299591793_1_alg».proof.Proof.CxConsts
import proofs.«127408_j72284299591793_1_alg».proof.Proof.LibSupBlocks
import Idealize.ShloMosaic.Lib.Pipeline.Value

set_option maxRecDepth 16384

noncomputable section

namespace Cert.KernelIdeal.Grid

open Cert.KernelIdeal Cert.KernelIdeal.Gen Cert.CxSpec
open Idealize.ShloMosaic Idealize.ShloMosaic.TcCoe Idealize.SL.Sem Idealize.ShloMosaic.ValueIdx
open Idealize.ShloMosaic.SupBlocks
open Idealize.ShloMosaic.Pipeline (Dat)

variable (m : (ℓ : Loc nD τ sig) → Buf (Elt Ideal) ℓ) (c : Dev nD)

/-- Image `n`'s rows and target matrix, read off the two staged arrays as the region finds them. -/
abbrev imgRows (n : Fin 4) : Fin 4096 → Fin 512 → EReal := fun i cc => V m c main_v27 (ix3 n i cc)
abbrev imgCols (n : Fin 4) : Fin 512 → Fin 4096 → EReal := fun cc j => V m c main_v28 (ix3 n cc j)

/-- The greatest normalised weight on column `j` over image `n`'s rows below `a`. -/
def top (n : Fin 4) (a : ℕ) (j : Fin 4096) : EReal :=
  (Finset.univ.filter (fun i : Fin 4096 => i.val < a)).sup (fun i => cx (imgRows m c n i) (imgCols m c n) j)

/-- The maximum's starting value is the least extended real. -/
theorem negInf_eq : (negInf : EReal) = ⊥ := Cert.CxConsts.ofBits_neg_inf

/-- Over all rows it is the specification's column maximum. -/
theorem top_all (n : Fin 4) (j : Fin 4096) : top m c n 4096 j = colmax (imgRows m c n) (imgCols m c n) j := by
  unfold top colmax
  rw [sup_filter_lt_all, negInf_eq, fold_max_bot_eq_sup]

/-! ### The windows' blocks -/

/-- The printed index maps over the grid: image, row tile, and nothing else moves. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = 0 ∧ win0_1.index t (2 : Fin 3) = 0
    ∧ win0_2.index t (0 : Fin 3) = t.val / 16 ∧ win0_2.index t (1 : Fin 3) = 0 ∧ win0_2.index t (2 : Fin 3) = 0 :=
  (by decide +kernel : ∀ t : Fin grid0.N, _)

/-- Row `i'` of the prediction block at point `t` is row `256 r + i'` of image `n`. -/
theorem blk_rows (t : Fin cfg0.N) (q : Fin 4) (hq : q.val = t.val / 16) (i' : Fin 256) (r : Fin 4096)
    (hr : r.val = t.val % 16 * 256 + i'.val) (cc : Fin 512) :
    (iblk m c 0 t : Vec Ideal S1x256x512 .bf16) (ix3 (0 : Fin 1) i' cc) = V m c main_v27 (ix3 q r cc) := by
  obtain ⟨e0, e1, e2, -⟩ := idx_facts t
  unfold iblk
  rw [View.read_apply]
  show V m c main_v27 _ = V m c main_v27 _
  congr 1
  funext a
  apply Fin.ext
  match a with
  | ⟨0, _⟩ => show win0_0.index t (0 : Fin 3) * 1 + 1 * 0 = q.val; omega
  | ⟨1, _⟩ => show win0_0.index t (1 : Fin 3) * 256 + 1 * i'.val = r.val; omega
  | ⟨2, _⟩ => show win0_0.index t (2 : Fin 3) * 512 + 1 * cc.val = cc.val; omega

/-- The target block at point `t` is image `n`'s whole matrix. -/
theorem blk_cols (t : Fin cfg0.N) (q : Fin 4) (hq : q.val = t.val / 16) (cc : Fin 512) (j : Fin 4096) :
    (iblk m c 1 t : Vec Ideal S1x512x4096 .bf16) (ix3 (0 : Fin 1) cc j) = V m c main_v28 (ix3 q cc j) := by
  obtain ⟨-, -, -, e0, e1, e2, -⟩ := idx_facts t
  unfold iblk
  rw [View.read_apply]
  show V m c main_v28 _ = V m c main_v28 _
  congr 1
  funext a
  apply Fin.ext
  match a with
  | ⟨0, _⟩ => show win0_1.index t (0 : Fin 3) * 1 + 1 * 0 = q.val; omega
  | ⟨1, _⟩ => show win0_1.index t (1 : Fin 3) * 512 + 1 * cc.val = cc.val; omega
  | ⟨2, _⟩ => show win0_1.index t (2 : Fin 3) * 4096 + 1 * j.val = j.val; omega

/-! ### One tile joined into the running maximum -/

/-- If the running maximum holds `top (n, a, ·)` with `a = 256 r`, the body at point `t = 16 n + r` leaves
    `top (n, a + 256, ·)`. -/
theorem tile_step (t : Fin cfg0.N) (q : Fin 4) (hq : q.val = t.val / 16) (a : ℕ) (ha : a = t.val % 16 * 256)
    (acc : Vec Ideal S8x4096 .f32) (hacc : ∀ k j, acc (ix2 k j) = top m c q a j) (k : Fin 8) (j : Fin 4096) :
    k0_pay3 (F := Ideal) (iblk m c 0 t) (iblk m c 1 t) acc (ix2 k j) = top m c q (a + 256) j := by
  have hN : t.val < 64 := lt_of_lt_of_eq t.isLt (show cfg0.N = 64 from N_0)
  refine (Tile.step_apply (iblk m c 0 t) (iblk m c 1 t) acc k j).trans ?_
  rw [hacc k j]
  unfold top
  rw [sup_filter_lt_add _ a 256 (by omega)]
  refine congrArg (fun z => max ((Finset.univ.filter (fun i : Fin 4096 => i.val < a)).sup (fun i => cx (imgRows m c q i) (imgCols m c q) j)) z) ?_
  unfold colmax
  rw [negInf_eq, fold_max_bot_eq_sup]
  refine congrArg (fun g : Fin 256 → EReal => Finset.univ.sup g) (funext fun b => ?_)
  have e1 : Tile.rowsOf (iblk m c 0 t) b = imgRows m c q ⟨a + b.val, by have := b.isLt; omega⟩ :=
    funext fun cc => blk_rows m c t q hq b ⟨a + b.val, by have := b.isLt; omega⟩ (by show a + b.val = _; omega) cc
  have e2 : Tile.colsOf (iblk m c 1 t) = imgCols m c q := funext fun cc => funext fun j' => blk_cols m c t q hq cc j'
  exact congrArg₂ (fun A B => cx A B j) e1 e2

/-! ### What each case leaves, at a point of the grid -/

/-- A first tile: the scratch is the tile joined into the fill. -/
theorem scratch_at_first (t : Fin cfg0.N) (h0 : t.val % 16 = 0) (h1 : ¬t.val % 16 = 15) :
    (outsAt0 m c t.val t.isLt).2 = k0_pay3 (F := Ideal) (iblk m c 0 t) (iblk m c 1 t) (k0_pay2 (F := Ideal)) := by
  rw [outsAt0_A m c t h0 h1]
  dsimp only
  exact Pieces.scratch_first (F := Ideal) c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t)

/-- A middle tile: the scratch is the tile joined into what the point before left. -/
theorem scratch_at_middle (t : Fin cfg0.N) (h0 : ¬t.val % 16 = 0) (h1 : ¬t.val % 16 = 15) :
    (outsAt0 m c t.val t.isLt).2 = k0_pay3 (F := Ideal) (iblk m c 0 t) (iblk m c 1 t)
      (outsAt0 m c (t.val - 1) (Nat.lt_of_le_of_lt (Nat.sub_le _ _) t.isLt)).2 := by
  rw [outsAt0_B m c t h0 h1]
  dsimp only
  exact Pieces.scratch_middle (F := Ideal) c (grid0.coords t) (ms0_0 t) (hs0_0 t) (ms0_1 t) (hs0_1 t) (ms0_2 t) (hs0_2 t) scM0_0
    (Memref.isWhole_whole _) (fun h => h0 ((hcond0_0 t).mp h)) (fun h => h1 ((hcond0_1 t).mp h)) (iblk m c 0 t) (iblk m c 1 t)
    (outsAt0 m c (t.val - 1) (Nat.lt_of_le_of_lt (Nat.sub_le _ _) t.isLt)).2

/-- A last tile: the scratch likewise, -/
theorem scratch_at_last (t : Fin cfg0.N) (h0 : ¬t.val % 16 = 0) (h1 : t.val % 16 = 15) :
    (outsAt0 m c t.val t.isLt).2 = k0_pay3 (F := Ideal) (iblk m c 0 t) (iblk m c 1 t)
      (outsAt0 m c (t.val - 1) (Nat.lt_of_le_of_lt (Nat.sub_le _ _) t.isLt)).2 := by
  rw [outsAt0_C m c t h0 h1]
  dsimp only
  exact Pieces.scratch_last (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

/-- and the output block is the loss computed from that scratch. -/
theorem output_at_last (t : Fin cfg0.N) (h0 : ¬t.val % 16 = 0) (h1 : t.val % 16 = 15) :
    (outsAt0 m c t.val t.isLt).1 = k0_pay1 (F := Ideal) (k0_pay3 (F := Ideal) (iblk m c 0 t) (iblk m c 1 t)
      (outsAt0 m c (t.val - 1) (Nat.lt_of_le_of_lt (Nat.sub_le _ _) t.isLt)).2) := by
  rw [outsAt0_C m c t h0 h1]
  dsimp only
  exact Pieces.output_last (F := Ideal) c (grid0.coords t) (ms0_0 t) (hs0_0 t) (ms0_1 t) (hs0_1 t) (ms0_2 t) (hs0_2 t) scM0_0
    (Memref.isWhole_whole _) (fun h => h0 ((hcond0_0 t).mp h)) ((hcond0_1 t).mpr h1) (iblk m c 0 t) (iblk m c 1 t)
    (outsAt0 m c (t.val - 1) (Nat.lt_of_le_of_lt (Nat.sub_le _ _) t.isLt)).2

/-! ### The running maximum after every point -/

/-- The fill holds `top (n, 0, ·)`, the least element. -/
theorem fill_top (q : Fin 4) (k : Fin 8) (j : Fin 4096) : k0_pay2 (F := Ideal) (ix2 k j) = top m c q 0 j := by
  rw [Tile.fill_apply, negInf_eq]
  unfold top
  rw [sup_filter_lt_zero]

/-- After point `n` the running maximum holds, in every row, the maximum over the rows seen so far in its image. -/
theorem scratch_eq : ∀ (n : ℕ) (h : n < cfg0.N) (q : Fin 4) (hq : q.val = n / 16) (k : Fin 8) (j : Fin 4096),
    (outsAt0 m c n h).2 (ix2 k j) = top m c q (n % 16 * 256 + 256) j
  | 0, h, q, hq, k, j => by
    refine (congrFun (scratch_at_first m c ⟨0, h⟩ (Nat.zero_mod 16) (by show ¬(0 % 16 = 15); decide)) (ix2 k j)).trans ?_
    exact tile_step m c ⟨0, h⟩ q hq 0 (by show 0 = 0 % 16 * 256; rfl) _ (fun k' j' => fill_top m c q k' j') k j
  | n + 1, h, q, hq, k, j => by
    have hN : n + 1 < 64 := lt_of_lt_of_eq h (show cfg0.N = 64 from N_0)
    by_cases h0 : (n + 1) % 16 = 0
    · have h1 : ¬(n + 1) % 16 = 15 := by omega
      refine (congrFun (scratch_at_first m c ⟨n + 1, h⟩ h0 h1) (ix2 k j)).trans ?_
      have e : (n + 1) % 16 * 256 + 256 = 0 + 256 := by omega
      rw [e]
      exact tile_step m c ⟨n + 1, h⟩ q hq 0 (by show 0 = (n + 1) % 16 * 256; omega) _ (fun k' j' => fill_top m c q k' j') k j
    · have hprev : ∀ k' j', (outsAt0 m c n (Nat.lt_of_succ_lt h)).2 (ix2 k' j') = top m c q ((n + 1) % 16 * 256) j' := fun k' j' => by
        rw [scratch_eq n (Nat.lt_of_succ_lt h) q (by omega) k' j']
        congr 1
        omega
      by_cases h1 : (n + 1) % 16 = 15
      · refine (congrFun (scratch_at_last m c ⟨n + 1, h⟩ h0 h1) (ix2 k j)).trans ?_
        exact tile_step m c ⟨n + 1, h⟩ q hq _ rfl _ hprev k j
      · refine (congrFun (scratch_at_middle m c ⟨n + 1, h⟩ h0 h1) (ix2 k j)).trans ?_
        exact tile_step m c ⟨n + 1, h⟩ q hq _ rfl _ hprev k j

/-! ### The output block a last tile writes -/

/-- At the last row tile of image `n` every entry of the output block is image `n`'s loss. -/
theorem out_eq (t : Fin cfg0.N) (h15 : t.val % 16 = 15) (q : Fin 4) (hq : q.val = t.val / 16) (y : S1x8x128.Idx) :
    (outsAt0 m c t.val t.isLt).1 y = loss (colmax (imgRows m c q) (imgCols m c q)) := by
  have hN : t.val < 64 := lt_of_lt_of_eq t.isLt (show cfg0.N = 64 from N_0)
  have h0 : ¬t.val % 16 = 0 := by omega
  refine (congrFun (output_at_last m c t h0 h15) y).trans ?_
  have hprev : ∀ k' j', (outsAt0 m c (t.val - 1) (Nat.lt_of_le_of_lt (Nat.sub_le _ _) t.isLt)).2 (ix2 k' j')
      = top m c q (t.val % 16 * 256) j' := fun k' j' => by
    rw [scratch_eq m c (t.val - 1) _ q (by omega) k' j']
    congr 1
    omega
  refine Emit.emit_of_rows _ (colmax (imgRows m c q) (imgCols m c q)) (fun k j => ?_) y
  rw [tile_step m c t q hq _ rfl _ hprev k j, ← top_all]
  congr 1
  omega

/-! ### The output array after the run -/

/-- The output array: entry (n, s, l) is image `n`'s loss. -/
def result : S4x8x128.Idx → EReal := fun y => loss (colmax (imgRows m c (y 0)) (imgCols m c (y 0)))

/-- What a flushing point writes back is its block of `result`. -/
theorem flushed_eq (t : Fin cfg0.N) (hf : (cfg0.win 2).flush t = true) :
    (dats m 0 c).flushed 2 t = ((cfg0.win 2).blk t).view.read (Elt Ideal) (result m c) := by
  have h15 : t.val % 16 = 15 := (flush0_2 t).mp hf
  obtain ⟨-, -, -, -, -, -, e0, e1, e2⟩ := idx_facts t
  show (cfg0.win 2).cut (grid0.coords t) ((dats m 0 c).after 2 t) = _
  rw [after0_2]
  funext y
  show (outsAt0 m c t.val t.isLt).1 y = result m c (((cfg0.win 2).blk t).view.emb y)
  unfold result
  exact out_eq m c t h15 _ (by
    show win0_2.index t (0 : Fin 3) * 1 + 1 * (y 0).val = t.val / 16
    have hy : (y 0).val < 1 := (y 0).isLt
    omega) y

/-- Every index of the output array is in the block of its image's last tile. -/
theorem covered (i : S4x8x128.Idx) : ∃ t : Fin cfg0.N, (cfg0.win 2).flush t = true ∧ i ∈ ((cfg0.win 2).blk t).view.set := by
  have hi0 : (i 0).val < 4 := (i 0).isLt
  have hi1 : (i 1).val < 8 := (i 1).isLt
  have hi2 : (i 2).val < 128 := (i 2).isLt
  have hN : cfg0.N = 64 := N_0
  let t : Fin cfg0.N := ⟨(i 0).val * 16 + 15, by omega⟩
  have htv : t.val = (i 0).val * 16 + 15 := rfl
  obtain ⟨-, -, -, -, -, -, e0, e1, e2⟩ := idx_facts t
  refine ⟨t, (flush0_2 t).mpr (by omega), ?_⟩
  show i ∈ ((View.whole main_v29).slice (win0_2.rect t)).set
  rw [View.set_slice_whole, Rect.mem_set_unit]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 8 ≤ (i 1).val ∧ (i 1).val < win0_2.index t (1 : Fin 3) * 8 + 8; omega
  | ⟨2, _⟩ => show win0_2.index t (2 : Fin 3) * 128 ≤ (i 2).val ∧ (i 2).val < win0_2.index t (2 : Fin 3) * 128 + 128; omega

/-- So the output array ends at `result`. -/
theorem final : (dats m 0 c).arrAt 2 cfg0.N = result m c :=
  (dats m 0 c).arrAt_eq_of_cover 2 (result m c) (flushed_eq m c) (covered)

end Cert.KernelIdeal.Grid

end
-- ==== Proof.CxKernel.lean ====
/-
  The idealized kernel's run, read: its result is the mean of the four images' losses, and the two staged arrays are
  the reference's own normalised features.

  After the region the program takes entry (n, 0, 0) of the output array for each image n, sums the four, divides by
  4 and multiplies by 1. The output array holds image n's loss in every entry of block n, so the four numbers taken
  are the four losses. Before the region the program centres both feature arrays by the target's mean over positions
  and divides each position's channel vector by its length plus epsilon — operation for operation what the reference
  does — and hands the kernel the prediction features transposed (positions by channels); the conversions to a
  narrower float format are the identity on extended reals.
-/
import proofs.«127408_j72284299591793_1_alg».proof.Proof.Gen.KernelIdeal.Frame
import proofs.«127408_j72284299591793_1_alg».proof.Proof.Gen.ReferenceIdeal.Read
import proofs.«127408_j72284299591793_1_alg».proof.Proof.CxGrid
import Idealize.ShloMosaic.Lib.Pipeline.Value
import Idealize.ShloMosaic.Lib.StableHlo.Run
import Idealize.ShloMosaic.Lib.ValueLayout
import Idealize.ShloMosaic.Lib.Tactic

set_option maxRecDepth 16384

noncomputable section

namespace Cert.KernelIdeal.KValue

open Cert.KernelIdeal Cert.KernelIdeal.Gen Cert.CxSpec
open Idealize.ShloMosaic Idealize.ShloMosaic.TcCoe Idealize.SL.Sem Idealize.ShloMosaic.ValueIdx
open Idealize.ShloMosaic.StableHlo Idealize.ShloMosaic.Tactic
open Idealize.ShloMosaic.Pipeline (Dat)

variable (m : (ℓ : Loc nD τ sig) → Buf (Elt Ideal) ℓ) (ρ : Dev nD → PrngReg) (c : Dev nD)

/-! ### After the region -/

/-- The mean of a vector of four numbers, times one: the last four host operations of both programs. -/
def meanOfFour (L : S4.Idx → EReal) : S_.Idx → EReal :=
  mulf (constant (F := Ideal) S_ .f32 0x3F800000#32)
    (Host.divf (Host.reduceAdd L (constant (F := Ideal) S_ .f32 0x00000000#32) reducesTo_S4_S_d0 h_S_)
      (constant (F := Ideal) S_ .f32 0x40800000#32))

/-- Entry (n, 0, 0) of each block of the output array, as a vector of four. -/
def perImage (X : S4x8x128.Idx → EReal) : S4.Idx → EReal :=
  shapeCast S4 (extractStridedSlice S4x1x1 ![0, 0, 0] X slices_S4x8x128_S4x1x1_0_0_0) shapeCasts_S4x1x1_S4

theorem perImage_apply (X : S4x8x128.Idx → EReal) (n : Fin 4) :
    perImage X (ix1 n) = X (ix3 n (0 : Fin 8) (0 : Fin 128)) := by
  unfold perImage
  refine (shapeCast_apply _ shapeCasts_S4x1x1_S4 (ix1 n) (ix3 n (0 : Fin 1) (0 : Fin 1)) ?_).trans ?_
  · rw [Shape.rowMajor_val_three, Shape.rowMajor_val_one]
    show (n.val * 1 + 0) * 1 + 0 = n.val
    omega
  · unfold extractStridedSlice
    congr 1
    funext a
    apply Fin.ext
    match a with
    | ⟨0, _⟩ => show 0 + n.val = n.val; omega
    | ⟨1, _⟩ => rfl
    | ⟨2, _⟩ => rfl

/-- What the host operations after the region leave in the result. -/
theorem tail_eq :
    Pipeline.afterTail₀ cfgs (dats m) 0 (V0 m) [hostOps1] c main_v34 = meanOfFour (perImage (Grid.result m c)) := by
  unfold Pipeline.afterTail₀
  show StableHlo.after hostOps1 _ (Proc.devRef .tc main_v34) = _
  after_results
  have hW : Pipeline.withArrays (cfgs 0).spec c (V0 m c) (fun w => (dats m 0 c).arrAt w (cfgs 0).N) (Proc.tc.devRef main_v29)
      = Grid.result m c :=
    (Pipeline.withArrays_arr spec0 launch0.win.arr_inj c _ _ 2).trans (Grid.final m c)
  rw [hW]
  rfl

/-- The run: the result at the mean of the four losses, the arguments unchanged. -/
theorem run : θ_run defs (onTc (τ := τ) (main (F := Ideal))) ⟨m, fun _ => 0, ρ⟩ (fun r => ∀ c : Dev nD,
      r.2.mem ((c.tc : Thread nD τ).loc main_v34) = meanOfFour (perImage (Grid.result m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v34 (Pipeline.mem_restRefs_of main_v34 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

/-! ### Before the region -/

/-- The staged prediction array is the reference's normalised prediction features, transposed. -/
theorem head_rows :
    (V m c main_v27 : S4x4096x512.Idx → EReal)
      = (truncf .bf16 (transpose S4x4096x512 [0, 2, 1]
          (Cert.ReferenceIdeal.Read.val_main_v14 (F := Ideal) (m ((c.tc : Thread nD τ).loc main_arg0)) (m ((c.tc : Thread nD τ).loc main_arg1))
            : FVec Ideal S4x512x4096 .f32)
          transposes_S4x512x4096_S4x4096x512_0_2_1 : FVec Ideal S4x4096x512 .f32) bitsLt_bf16_f32 : FVec Ideal S4x4096x512 .bf16) := by
  show StableHlo.after hostOps0 (fun b => m (c, b)) (Proc.devRef .tc main_v27) = _
  after_results
  rfl

/-- The staged target array is the reference's normalised target features. -/
theorem head_cols :
    (V m c main_v28 : S4x512x4096.Idx → EReal)
      = (truncf .bf16
          (Cert.ReferenceIdeal.Read.val_main_v19 (F := Ideal) (m ((c.tc : Thread nD τ).loc main_arg1)) : FVec Ideal S4x512x4096 .f32)
          bitsLt_bf16_f32 : FVec Ideal S4x512x4096 .bf16) := by
  show StableHlo.after hostOps0 (fun b => m (c, b)) (Proc.devRef .tc main_v28) = _
  after_results
  rfl

theorem rows_apply (n : Fin 4) (i : Fin 4096) (cc : Fin 512) :
    V m c main_v27 (ix3 n i cc)
      = Cert.ReferenceIdeal.Read.val_main_v14 (F := Ideal) (m ((c.tc : Thread nD τ).loc main_arg0)) (m ((c.tc : Thread nD τ).loc main_arg1)) (ix3 n cc i) := by
  refine (congrFun (head_rows m c) (ix3 n i cc)).trans ?_
  show transpose S4x4096x512 [0, 2, 1]
    (Cert.ReferenceIdeal.Read.val_main_v14 (F := Ideal) (m ((c.tc : Thread nD τ).loc main_arg0)) (m ((c.tc : Thread nD τ).loc main_arg1))
      : FVec Ideal S4x512x4096 .f32)
    transposes_S4x512x4096_S4x4096x512_0_2_1 (ix3 n i cc) = _
  exact transpose_ix3_021_apply _ transposes_S4x512x4096_S4x4096x512_0_2_1 n i cc

theorem cols_apply (n : Fin 4) (cc : Fin 512) (j : Fin 4096) :
    V m c main_v28 (ix3 n cc j)
      = Cert.ReferenceIdeal.Read.val_main_v19 (F := Ideal) (m ((c.tc : Thread nD τ).loc main_arg1)) (ix3 n cc j) := by
  exact congrFun (head_cols m c) (ix3 n cc j)

end Cert.KernelIdeal.KValue

end
-- ==== Proof.CxRef.lean ====
/-
  The reference program, image by image, is the specification.

  With P = the normalised prediction features and T = the normalised target features (two 4 x 512 x 4096 stages of the
  reference, both functions of the two arguments), image n's rows are a_i = (c ↦ P (n, c, i)) and its target matrix is
  B = ((c, j) ↦ T (n, c, j)). The reference's batched contraction over the channel axis is the specification's sum over
  c; each later stage is the specification's, read one operation at a time; the two order-free reductions (a minimum
  along the last axis, a maximum along the middle axis) are folds over the reduced coordinate. So entry n of the vector
  of per-image losses is loss (colmax (rows of image n) (target matrix of image n)).
-/
import proofs.«127408_j72284299591793_1_alg».proof.Proof.Gen.ReferenceIdeal.Read
import proofs.«127408_j72284299591793_1_alg».proof.Proof.CxSpec
import proofs.«127408_j72284299591793_1_alg».proof.Proof.LibReduceAt

noncomputable section

namespace Cert.ReferenceIdeal.RefValue

open Cert.ReferenceIdeal Cert.ReferenceIdeal.Gen Cert.ReferenceIdeal.Read Cert.CxSpec
open Idealize.ShloMosaic Idealize.ShloMosaic.ValueIdx Idealize.ShloMosaic.ReduceAt

variable (x0 x1 : (⟨S4x512x64x64, .f32⟩ : BufTy).Contents (Elt Ideal))

/-- Image `n`'s rows of normalised prediction features and its matrix of normalised target features. -/
abbrev imgRows (n : Fin 4) : Fin 4096 → Fin 512 → EReal := fun i c => val_main_v14 (F := Ideal) x0 x1 (ix3 n c i)
abbrev imgCols (n : Fin 4) : Fin 512 → Fin 4096 → EReal := fun c j => val_main_v19 (F := Ideal) x1 (ix3 n c j)

/-! ### The index maps of the stages, by coordinates -/

theorem lidx_v20 (n : Fin 4) (i j : Fin 4096) (k : Fin 512) : lidx_main_v20 (ix3 n i j) k = ix3 n k i :=
  funext fun a => match a with | ⟨0, _⟩ => rfl | ⟨1, _⟩ => rfl | ⟨2, _⟩ => rfl
theorem ridx_v20 (n : Fin 4) (i j : Fin 4096) (k : Fin 512) : ridx_main_v20 (ix3 n i j) k = ix3 n k j :=
  funext fun a => match a with | ⟨0, _⟩ => rfl | ⟨1, _⟩ => rfl | ⟨2, _⟩ => rfl
theorem idx_v27 (n : Fin 4) (i j : Fin 4096) : idx_main_v27 (ix3 n i j) = ix3 n i (0 : Fin 1) :=
  funext fun a => match a with | ⟨0, _⟩ => rfl | ⟨1, _⟩ => rfl | ⟨2, _⟩ => rfl
theorem idx_v24 (n : Fin 4) (i : Fin 4096) : idx_main_v24 (ix3 n i (0 : Fin 1)) = ix2 n i :=
  funext fun a => match a with | ⟨0, _⟩ => rfl | ⟨1, _⟩ => rfl
theorem idx_v36 (n : Fin 4) (i j : Fin 4096) : idx_main_v36 (ix3 n i j) = ix3 n i (0 : Fin 1) :=
  funext fun a => match a with | ⟨0, _⟩ => rfl | ⟨1, _⟩ => rfl | ⟨2, _⟩ => rfl
theorem idx_v35 (n : Fin 4) (i : Fin 4096) : idx_main_v35 (ix3 n i (0 : Fin 1)) = ix2 n i :=
  funext fun a => match a with | ⟨0, _⟩ => rfl | ⟨1, _⟩ => rfl
theorem idx_v34 (n : Fin 4) (i k : Fin 4096) : idx_main_v34 (ix2 n i) k = ix3 n i k :=
  funext fun a => match a with | ⟨0, _⟩ => rfl | ⟨1, _⟩ => rfl | ⟨2, _⟩ => rfl
theorem idx_v39 (n : Fin 4) (k : Fin 4096) : idx_main_v39 (ix1 n) k = ix2 n k :=
  funext fun a => match a with | ⟨0, _⟩ => rfl | ⟨1, _⟩ => rfl

/-! ### The stages -/

/-- The distance of row i of image n to column j. -/
theorem dist_apply (n : Fin 4) (i j : Fin 4096) :
    val_main_v22 (F := Ideal) x0 x1 (ix3 n i j) = CxSpec.dist (imgRows x0 x1 n i) (imgCols x1 n) j := by
  rw [val_main_v22_apply, val_main_v21_apply, val_main_cst_3_apply, val_main_v20_apply]
  unfold CxSpec.dist
  simp only [lidx_v20, ridx_v20, Ideal.subf_def, Ideal.ofBits_def]

/-- The row's least distance: the host's minimum along the last axis is the fold over the column coordinate. -/
theorem dmin_apply (n : Fin 4) (i : Fin 4096) :
    val_main_v23 (F := Ideal) x0 x1 (ix2 n i) = dmin (imgRows x0 x1 n i) (imgCols x1 n) := by
  unfold val_main_v23 dmin
  refine (host_reduce_last_apply (FloatOps.minimumf (F := Ideal) (φ := .f32)) (val_main_v22 (F := Ideal) x0 x1)
    (val_main_cst_4 (F := Ideal)) reducesTo_S4x4096x4096_S4x4096_d2 h_S_ (by decide) n i).trans ?_
  show Finset.fold min posInf (fun j : Fin 4096 => val_main_v22 (F := Ideal) x0 x1 (ix3 n i j)) Finset.univ = _
  exact congrArg (fun g : Fin 4096 → EReal => Finset.fold min posInf g Finset.univ) (funext fun j => dist_apply x0 x1 n i j)

/-- The row's weight on column j. -/
theorem wgt_apply (n : Fin 4) (i j : Fin 4096) :
    val_main_v33 (F := Ideal) x0 x1 (ix3 n i j) = wgt (imgRows x0 x1 n i) (imgCols x1 n) j := by
  rw [val_main_v33_apply, val_main_v32_apply, val_main_v30_apply, val_main_v31_apply, val_main_cst_7_apply,
    val_main_v29_apply, val_main_cst_6_apply, val_main_v28_apply, val_main_v27_apply, idx_v27, val_main_v26_apply,
    val_main_v24_apply, idx_v24, val_main_v25_apply, val_main_cst_5_apply, dmin_apply, dist_apply]
  unfold wgt
  simp only [Ideal.hostUnary_exp_def, Ideal.hostDivf_def, Ideal.subf_def, Ideal.addf_def, Ideal.ofBits_def]

/-- The row's weights normalised by their sum. -/
theorem cx_apply (n : Fin 4) (i j : Fin 4096) :
    val_main_v37 (F := Ideal) x0 x1 (ix3 n i j) = cx (imgRows x0 x1 n i) (imgCols x1 n) j := by
  rw [val_main_v37_apply, val_main_v36_apply, idx_v36, val_main_v35_apply, idx_v35, val_main_v34_apply,
    val_main_cst_8_apply, wgt_apply]
  unfold cx
  simp only [idx_v34, wgt_apply, Ideal.hostDivf_def, Ideal.ofBits_def, Ideal.ofBits_zero_f32, zero_add]

/-- The column's greatest normalised weight: the host's maximum along the middle axis is the fold over the rows. -/
theorem colmax_apply (n : Fin 4) (j : Fin 4096) :
    val_main_v38 (F := Ideal) x0 x1 (ix2 n j) = colmax (imgRows x0 x1 n) (imgCols x1 n) j := by
  unfold val_main_v38 colmax
  refine (host_reduce_middle_apply (FloatOps.maximumf (F := Ideal) (φ := .f32)) (val_main_v37 (F := Ideal) x0 x1)
    (val_main_cst_9 (F := Ideal)) reducesTo_S4x4096x4096_S4x4096_d1 h_S_ (by decide) n j).trans ?_
  show Finset.fold max negInf (fun i : Fin 4096 => val_main_v37 (F := Ideal) x0 x1 (ix3 n i j)) Finset.univ = _
  exact congrArg (fun g : Fin 4096 → EReal => Finset.fold max negInf g Finset.univ) (funext fun i => cx_apply x0 x1 n i j)

/-- Image n's loss. -/
theorem loss_apply (n : Fin 4) :
    val_main_v45 (F := Ideal) x0 x1 (ix1 n) = loss (colmax (imgRows x0 x1 n) (imgCols x1 n)) := by
  rw [val_main_v45_apply, val_main_v44_apply, val_main_v43_apply, val_main_v41_apply, val_main_v42_apply,
    val_main_cst_12_apply, val_main_v40_apply, val_main_cst_11_apply, val_main_v39_apply, val_main_cst_10_apply]
  unfold loss
  simp only [idx_v39, colmax_apply, Ideal.hostNegf_def, Ideal.negf_def, Ideal.hostUnary_log_def, Ideal.hostDivf_def,
    Ideal.addf_def, Ideal.ofBits_def, Ideal.ofBits_zero_f32, zero_add]

end Cert.ReferenceIdeal.RefValue

end
-- ==== Proof.lean ====
/-
  The contextual loss, computed by a tiled kernel and by a plain reference, is one function on the extended reals.

  Both programs take prediction and target features of 4 images (512 channels, 4096 positions), centre both by the
  target's mean over positions, divide each position's channel vector by its length plus epsilon, and for each image
  form, for every prediction position i and target position j,

      dist i j = 1 - sum over channels of p(c, i) t(c, j),      dmin i = min over j of dist i j,
      wgt i j  = exp ((1 - dist i j / (dmin i + eps)) / 1),      cx i j = wgt i j / sum over j' of wgt i j',

  then  loss = - log ((sum over j of max over i of cx i j) / 4096 + eps),  and return the mean of the 4 losses.

  The reference takes the maximum over all 4096 rows i at once. The kernel walks a grid of 4 images by 16 tiles of 256
  rows, keeps a running column maximum (8 identical rows of 4096, reset to minus infinity at each image's first tile)
  and joins each tile's column maxima into it; a maximum is associative, commutative and has minus infinity for its
  identity, so after the 16th tile the running maximum is the maximum over all rows. At that tile the kernel takes the
  mean of the 8 rows' means, which is one row's mean (eight copies of a value, summed and divided by 8, give the value
  back on the extended reals whether it is finite or not), and writes zero minus the logarithm, which is the negated
  logarithm. The sums over channels and positions are the same sums, the narrowing of the features to a shorter float
  format is the identity on extended reals, and every literal is the same word on both sides. No step needs the inputs
  to be finite, so the precondition is never opened.

  The modules: CxSpec (the formulas above), CxConsts (the two words whose value is used), LibSupBlocks, LibReduceAt,
  LibKeepdims, LibMatmulRows (general lemmas), CxTile, CxStep, CxEmit (one tile of the body, entry by entry), CxPieces
  (what each control case of the body stores), CxGrid (the running maximum after every grid point; the output array),
  CxKernel (the host operations around the region; the kernel's run), CxRef (the reference, stage by stage).
-/
import proofs.«127408_j72284299591793_1_alg».proof.Defs
import proofs.«127408_j72284299591793_1_alg».proof.Proof.Gen.Kernel
import proofs.«127408_j72284299591793_1_alg».proof.Proof.Gen.Kernel.Skeleton
import proofs.«127408_j72284299591793_1_alg».proof.Proof.Gen.Kernel.Launch
import proofs.«127408_j72284299591793_1_alg».proof.Proof.Gen.Kernel.Points
import proofs.«127408_j72284299591793_1_alg».proof.Proof.Gen.Kernel.Frame
import proofs.«127408_j72284299591793_1_alg».proof.Proof.Gen.KernelIdeal
import proofs.«127408_j72284299591793_1_alg».proof.Proof.Gen.KernelIdeal.Skeleton
import proofs.«127408_j72284299591793_1_alg».proof.Proof.Gen.KernelIdeal.Launch
import proofs.«127408_j72284299591793_1_alg».proof.Proof.Gen.KernelIdeal.Points
import proofs.«127408_j72284299591793_1_alg».proof.Proof.Gen.KernelIdeal.Frame
import proofs.«127408_j72284299591793_1_alg».proof.Proof.Gen.ReferenceIdeal
import proofs.«127408_j72284299591793_1_alg».proof.Proof.Gen.Pre_finite_inputs
import proofs.«127408_j72284299591793_1_alg».proof.Proof.RefRead
import proofs.«127408_j72284299591793_1_alg».proof.Proof.CxKernel
import proofs.«127408_j72284299591793_1_alg».proof.Proof.CxRef
import Idealize.ShloMosaic.Adequacy
import Idealize.ShloMosaic.Init

noncomputable section

namespace Cert.Proof

open Idealize.ShloMosaic Idealize.SL.Sem Idealize.ShloMosaic.ValueIdx

/-- The kernel's result is the reference's, as functions of the argument arrays: image by image the kernel's output
    array holds the specification's loss of the staged features, the staged features are the reference's normalised
    features (the prediction's transposed), the reference's per-image loss is the same specification, and both
    programs end with the same mean of four. -/
theorem result_eq (m : (ℓ : Loc Cert.KernelIdeal.nD Cert.KernelIdeal.τ Cert.KernelIdeal.sig) → Buf (Elt Ideal) ℓ)
    (c : Dev Cert.KernelIdeal.nD) :
    Cert.KernelIdeal.KValue.meanOfFour (Cert.KernelIdeal.KValue.perImage (Cert.KernelIdeal.Grid.result m c))
      = Cert.ReferenceIdeal.Read.val_main_v48 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  have hL : Cert.KernelIdeal.KValue.perImage (Cert.KernelIdeal.Grid.result m c)
      = Cert.ReferenceIdeal.Read.val_main_v45 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
    funext j
    obtain ⟨n, rfl⟩ : ∃ n : Fin 4, j = ix1 n := ⟨j 0, eq_ix1 j⟩
    rw [Cert.KernelIdeal.KValue.perImage_apply]
    refine Eq.trans ?_ (Cert.ReferenceIdeal.RefValue.loss_apply _ _ n).symm
    have e1 : Cert.KernelIdeal.Grid.imgRows m c n
        = Cert.ReferenceIdeal.RefValue.imgRows
            (m ((c.tc : Thread Cert.KernelIdeal.nD Cert.KernelIdeal.τ).loc Cert.KernelIdeal.main_arg0))
            (m ((c.tc : Thread Cert.KernelIdeal.nD Cert.KernelIdeal.τ).loc Cert.KernelIdeal.main_arg1)) n :=
      funext fun i => funext fun cc => Cert.KernelIdeal.KValue.rows_apply m c n i cc
    have e2 : Cert.KernelIdeal.Grid.imgCols m c n
        = Cert.ReferenceIdeal.RefValue.imgCols
            (m ((c.tc : Thread Cert.KernelIdeal.nD Cert.KernelIdeal.τ).loc Cert.KernelIdeal.main_arg1)) n :=
      funext fun cc => funext fun j' => Cert.KernelIdeal.KValue.cols_apply m c n cc j'
    show Cert.CxSpec.loss (Cert.CxSpec.colmax (Cert.KernelIdeal.Grid.imgRows m c n) (Cert.KernelIdeal.Grid.imgCols m c n)) = _
    rw [e1, e2]
  rw [hL]
  rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the two arguments both programs run, and end with the same extended real. -/
theorem algebraic : Cert.algebraic_KernelIdeal_ReferenceIdeal := by
  intro m ρ m' ρ' _ hagree
  refine ⟨fun c => Cert.KernelIdeal.KValue.meanOfFour (Cert.KernelIdeal.KValue.perImage (Cert.KernelIdeal.Grid.result m c)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v48_eq, (hagree c).1, (hagree c).2]
  exact (result_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
